-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x32 : Shape := ⟨4, ![8, 512, 512, 32]⟩
abbrev S1x16x16x32 : Shape := ⟨4, ![1, 16, 16, 32]⟩
abbrev S1x16x16x1 : Shape := ⟨4, ![1, 16, 16, 1]⟩
abbrev S_ : Shape := ⟨0, ![]⟩

class Facts : Prop where
  bcast_S_S8x512x512x32 : S_.BroadcastsInDim S8x512x512x32 (![] : Fin 0 → Fin S8x512x512x32.rank)
  reducesTo_S8x512x512x32_S_d0_1_2_3 : S8x512x512x32.ReducesTo [0, 1, 2, 3] S_
  h_S_ : 0 < S_.numel
  bcast_S_S1x16x16x32 : S_.BroadcastsInDim S1x16x16x32 (![] : Fin 0 → Fin S1x16x16x32.rank)
  reducesTo_S1x16x16x32_S_d0_1_2_3 : S1x16x16x32.ReducesTo [0, 1, 2, 3] S_
  bcast_S_S1x16x16x1 : S_.BroadcastsInDim S1x16x16x1 (![] : Fin 0 → Fin S1x16x16x1.rank)
  reducesTo_S1x16x16x1_S_d0_1_2_3 : S1x16x16x1.ReducesTo [0, 1, 2, 3] S_

variable [Facts]

def fn {F : FTy → Type} [FloatOps F] (main_arg0 : FVec F S8x512x512x32 .f32) (main_arg1 : FVec F S1x16x16x32 .f32) (main_arg2 : FVec F S1x16x16x1 .f32) : IVec S_ 1 :=
  let main_v0 : FVec F S8x512x512x32 .f32 := Host.absf main_arg0
  let main_cst : FVec F S_ .f32 := constant S_ .f32 0x7F800000#32
  let main_v1 : FVec F S8x512x512x32 .f32 := broadcastInDim S8x512x512x32 ![] bcast_S_S8x512x512x32 main_cst
  let main_v2 : IVec S8x512x512x32 1 := cmpf .olt main_v0 main_v1
  let main_c : IVec S_ 1 := constantI S_ 1 1#1
  let main_v3 : IVec S_ 1 := (fun x v => Host.reduce IntOp.andi x v reducesTo_S8x512x512x32_S_d0_1_2_3 h_S_) main_v2 main_c
  let main_v4 : FVec F S1x16x16x32 .f32 := Host.absf main_arg1
  let main_cst_0 : FVec F S_ .f32 := constant S_ .f32 0x7F800000#32
  let main_v5 : FVec F S1x16x16x32 .f32 := broadcastInDim S1x16x16x32 ![] bcast_S_S1x16x16x32 main_cst_0
  let main_v6 : IVec S1x16x16x32 1 := cmpf .olt main_v4 main_v5
  let main_c_1 : IVec S_ 1 := constantI S_ 1 1#1
  let main_v7 : IVec S_ 1 := (fun x v => Host.reduce IntOp.andi x v reducesTo_S1x16x16x32_S_d0_1_2_3 h_S_) main_v6 main_c_1
  let main_v8 : IVec S_ 1 := andi main_v3 main_v7
  let main_v9 : FVec F S1x16x16x1 .f32 := Host.absf main_arg2
  let main_cst_2 : FVec F S_ .f32 := constant S_ .f32 0x7F800000#32
  let main_v10 : FVec F S1x16x16x1 .f32 := broadcastInDim S1x16x16x1 ![] bcast_S_S1x16x16x1 main_cst_2
  let main_v11 : IVec S1x16x16x1 1 := cmpf .olt main_v9 main_v10
  let main_c_3 : IVec S_ 1 := constantI S_ 1 1#1
  let main_v12 : IVec S_ 1 := (fun x v => Host.reduce IntOp.andi x v reducesTo_S1x16x16x1_S_d0_1_2_3 h_S_) main_v11 main_c_3
  let main_v13 : IVec S_ 1 := andi main_v8 main_v12
  main_v13
-- ==== Kernel.lean ====
abbrev S8x512x512x32 : Shape := ⟨4, ![8, 512, 512, 32]⟩
abbrev S1x16x16x32 : Shape := ⟨4, ![1, 16, 16, 32]⟩
abbrev S1x16x16x1 : Shape := ⟨4, ![1, 16, 16, 1]⟩
abbrev S16x16x32 : Shape := ⟨3, ![16, 16, 32]⟩
abbrev S16x16 : Shape := ⟨2, ![16, 16]⟩
abbrev S1x16x1x16x1x32 : Shape := ⟨6, ![1, 16, 1, 16, 1, 32]⟩
abbrev S4x16x32x16x1x32 : Shape := ⟨6, ![4, 16, 32, 16, 1, 32]⟩
abbrev S64x512x32 : Shape := ⟨3, ![64, 512, 32]⟩
abbrev S_ : Shape := ⟨0, ![]⟩
abbrev S1 : Shape := ⟨1, ![1]⟩
abbrev S2 : Shape := ⟨1, ![2]⟩
abbrev S1x64x512x32 : Shape := ⟨4, ![1, 64, 512, 32]⟩
abbrev S2x64x512x32 : Shape := ⟨4, ![2, 64, 512, 32]⟩
abbrev S2x64x16384 : Shape := ⟨3, ![2, 64, 16384]⟩
abbrev S1x16x1x16 : Shape := ⟨4, ![1, 16, 1, 16]⟩
abbrev S4x16x32x16 : Shape := ⟨4, ![4, 16, 32, 16]⟩
abbrev S64x512 : Shape := ⟨2, ![64, 512]⟩
abbrev S8x512x16384 : Shape := ⟨3, ![8, 512, 16384]⟩
abbrev S8x512x512 : Shape := ⟨3, ![8, 512, 512]⟩
abbrev S1x64x16384 : Shape := ⟨3, ![1, 64, 16384]⟩
abbrev S1x64x512 : Shape := ⟨3, ![1, 64, 512]⟩
abbrev S64x16384 : Shape := ⟨2, ![64, 16384]⟩
abbrev S8x512x512x1 : Shape := ⟨4, ![8, 512, 512, 1]⟩

abbrev nBuf : Space → Nat
  | .hbm => 29
  | .vmem => 9
  | .smem => 0
  | _ => 0

abbrev bufTy : (tb : Table) → Fin (tcTables nBuf tb) → BufTy
  | .hbm, ⟨0, _⟩ => ⟨S8x512x512x32, .f32⟩
  | .hbm, ⟨1, _⟩ => ⟨S1x16x16x32, .f32⟩
  | .hbm, ⟨2, _⟩ => ⟨S1x16x16x1, .f32⟩
  | .hbm, ⟨3, _⟩ => ⟨S16x16x32, .f32⟩
  | .hbm, ⟨4, _⟩ => ⟨S16x16, .f32⟩
  | .hbm, ⟨5, _⟩ => ⟨S1x16x1x16x1x32, .f32⟩
  | .hbm, ⟨6, _⟩ => ⟨S4x16x32x16x1x32, .f32⟩
  | .hbm, ⟨7, _⟩ => ⟨S64x512x32, .f32⟩
  | .hbm, ⟨8, _⟩ => ⟨S_, .f32⟩
  | .hbm, ⟨9, _⟩ => ⟨S16x16x32, .f32⟩
  | .hbm, ⟨10, _⟩ => ⟨S16x16x32, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S64x512x32, .f32⟩
  | .hbm, ⟨17, _⟩ => ⟨S1x64x512x32, .f32⟩
  | .hbm, ⟨18, _⟩ => ⟨S1x64x512x32, .f32⟩
  | .hbm, ⟨19, _⟩ => ⟨S2x64x512x32, .f32⟩
  | .hbm, ⟨20, _⟩ => ⟨S2x64x16384, .f32⟩
  | .hbm, ⟨21, _⟩ => ⟨S1x16x1x16, .f32⟩
  | .hbm, ⟨22, _⟩ => ⟨S4x16x32x16, .f32⟩
  | .hbm, ⟨23, _⟩ => ⟨S64x512, .f32⟩
  | .hbm, ⟨24, _⟩ => ⟨S8x512x16384, .f32⟩
  | .hbm, ⟨25, _⟩ => ⟨S8x512x512, .f32⟩
  | .hbm, ⟨26, _⟩ => ⟨S8x512x16384, .f32⟩
  | .hbm, ⟨27, _⟩ => ⟨S8x512x512x1, .f32⟩
  | .hbm, ⟨28, _⟩ => ⟨S8x512x512x32, .f32⟩
  | .local _ .vmem, ⟨0, _⟩ => ⟨S1x64x16384, .f32⟩
  | .local _ .vmem, ⟨1, _⟩ => ⟨S1x64x16384, .f32⟩
  | .local _ .vmem, ⟨2, _⟩ => ⟨S64x512, .f32⟩
  | .local _ .vmem, ⟨3, _⟩ => ⟨S1x64x16384, .f32⟩
  | .local _ .vmem, ⟨4, _⟩ => ⟨S1x64x16384, .f32⟩
  | .local _ .vmem, ⟨5, _⟩ => ⟨S1x64x512, .f32⟩
  | .local _ .vmem, ⟨6, _⟩ => ⟨S1x64x512, .f32⟩
  | .local _ .vmem, ⟨7, _⟩ => ⟨S1x64x16384, .f32⟩
  | .local _ .vmem, ⟨8, _⟩ => ⟨S1x64x16384, .f32⟩
  | _, _ => ⟨S8x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1x16x16x32_S16x16x32 : S1x16x16x32.ShapeCasts S16x16x32
  shapeCasts_S1x16x16x1_S16x16 : S1x16x16x1.ShapeCasts S16x16
  shapeCasts_S16x16x32_S1x16x1x16x1x32 : S16x16x32.ShapeCasts S1x16x1x16x1x32
  bcast_S1x16x1x16x1x32_S4x16x32x16x1x32_0_1_2_3_4_5 : S1x16x1x16x1x32.BroadcastsInDim S4x16x32x16x1x32 (![0, 1, 2, 3, 4, 5] : Fin 6 → Fin S4x16x32x16x1x32.rank)
  shapeCasts_S4x16x32x16x1x32_S64x512x32 : S4x16x32x16x1x32.ShapeCasts S64x512x32
  bcast_S_S16x16x32 : S_.BroadcastsInDim S16x16x32 (![] : Fin 0 → Fin S16x16x32.rank)
  bcast_S_S1 : S_.BroadcastsInDim S1 (![] : Fin 0 → Fin S1.rank)
  concatenates_S1_S1_S2_d0 : Shape.Concatenates [S1, S1] S2 0
  bcast_S64x512x32_S1x64x512x32_1_2_3 : S64x512x32.BroadcastsInDim S1x64x512x32 (![1, 2, 3] : Fin 3 → Fin S1x64x512x32.rank)
  concatenates_S1x64x512x32_S1x64x512x32_S2x64x512x32_d0 : Shape.Concatenates [S1x64x512x32, S1x64x512x32] S2x64x512x32 0
  shapeCasts_S2x64x512x32_S2x64x16384 : S2x64x512x32.ShapeCasts S2x64x16384
  shapeCasts_S16x16_S1x16x1x16 : S16x16.ShapeCasts S1x16x1x16
  bcast_S1x16x1x16_S4x16x32x16_0_1_2_3 : S1x16x1x16.BroadcastsInDim S4x16x32x16 (![0, 1, 2, 3] : Fin 4 → Fin S4x16x32x16.rank)
  shapeCasts_S4x16x32x16_S64x512 : S4x16x32x16.ShapeCasts S64x512
  shapeCasts_S8x512x512x32_S8x512x16384 : S8x512x512x32.ShapeCasts S8x512x16384
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  shapeCasts_S64x16384_S1x64x16384 : S64x16384.ShapeCasts S1x64x16384
  shapeCasts_S64x16384_S64x512x32 : S64x16384.ShapeCasts S64x512x32
  reduces_S64x512x32_S64x512 : S64x512x32.Reduces [2] S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  shapeCasts_S8x512x512_S8x512x512x1 : S8x512x512.ShapeCasts S8x512x512x1
  shapeCasts_S8x512x16384_S8x512x512x32 : S8x512x16384.ShapeCasts S8x512x512x32
  scatter_S64x512x32_S2_S16x16x32_012_n_01_0_wf : ScatterDims.WF S64x512x32 S2 S16x16x32 [0, 1, 2] [] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S2x64x16384.size a
  hwx0_0 : ∀ i : grid0.Coords, EltTy.bits .f32 = 32 ∨ (Rect.block (s := S2x64x16384) S1x64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x16384.size a ≤ S8x512x16384.size a
  hwx0_2 : ∀ i : grid0.Coords, EltTy.bits .f32 = 32 ∨ (Rect.block (s := S8x512x16384) S1x64x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S8x512x512.size a
  hwx0_3 : ∀ i : grid0.Coords, EltTy.bits .f32 = 32 ∨ (Rect.block (s := S8x512x512) S1x64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x16384.size a ≤ S8x512x16384.size a
  hwx0_4 : ∀ i : grid0.Coords, EltTy.bits .f32 = 32 ∨ (Rect.block (s := S8x512x16384) S1x64x16384.size (cc0_transform_4 i) (hinb0_4 i)).WholeWords (EltTy.packing .f32)

variable [Facts₀]

def scatter_S64x512x32_S2_S16x16x32_012_n_01_0 : ScatterDims S64x512x32 S2 S16x16x32 where
  updateWindowDims := [0, 1, 2]
  insertedWindowDims := []
  scatterDimsToOperandDims := [0, 1]
  indexVectorDim := 0
  wf := scatter_S64x512x32_S2_S16x16x32_012_n_01_0_wf

abbrev win0_0 : Pipeline.Window sig grid0 :=
  Pipeline.Window.ofSpec (Memref.whole main_v13) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x64x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S1x64x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S1x64x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x512x32 : Shape := ⟨4, ![8, 512, 512, 32]⟩
abbrev S1x16x16x32 : Shape := ⟨4, ![1, 16, 16, 32]⟩
abbrev S1x16x16x1 : Shape := ⟨4, ![1, 16, 16, 1]⟩
abbrev S1x1x1x16x1x16x1x32 : Shape := ⟨8, ![1, 1, 1, 16, 1, 16, 1, 32]⟩
abbrev S1x1x32x16x32x16x1x32 : Shape := ⟨8, ![1, 1, 32, 16, 32, 16, 1, 32]⟩
abbrev S1x512x512x32 : Shape := ⟨4, ![1, 512, 512, 32]⟩
abbrev S_ : Shape := ⟨0, ![]⟩
abbrev S1 : Shape := ⟨1, ![1]⟩
abbrev S2 : Shape := ⟨1, ![2]⟩
abbrev S1x1x1x16x1x16x1x1 : Shape := ⟨8, ![1, 1, 1, 16, 1, 16, 1, 1]⟩
abbrev S1x1x32x16x32x16x1x1 : Shape := ⟨8, ![1, 1, 32, 16, 32, 16, 1, 1]⟩
abbrev S1x512x512x1 : Shape := ⟨4, ![1, 512, 512, 1]⟩
abbrev S8x512x512 : Shape := ⟨3, ![8, 512, 512]⟩
abbrev S8x512x512x1 : Shape := ⟨4, ![8, 512, 512, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x512x512x32, .f32⟩
  | .hbm, ⟨1, _⟩ => ⟨S1x16x16x32, .f32⟩
  | .hbm, ⟨2, _⟩ => ⟨S1x16x16x1, .f32⟩
  | .hbm, ⟨3, _⟩ => ⟨S1x1x1x16x1x16x1x32, .f32⟩
  | .hbm, ⟨4, _⟩ => ⟨S1x1x32x16x32x16x1x32, .f32⟩
  | .hbm, ⟨5, _⟩ => ⟨S1x512x512x32, .f32⟩
  | .hbm, ⟨6, _⟩ => ⟨S_, .f32⟩
  | .hbm, ⟨7, _⟩ => ⟨S1x16x16x32, .f32⟩
  | .hbm, ⟨8, _⟩ => ⟨S1x16x16x32, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S1x512x512x32, .f32⟩
  | .hbm, ⟨15, _⟩ => ⟨S1x1x1x16x1x16x1x1, .f32⟩
  | .hbm, ⟨16, _⟩ => ⟨S1x1x32x16x32x16x1x1, .f32⟩
  | .hbm, ⟨17, _⟩ => ⟨S1x512x512x1, .f32⟩
  | .hbm, ⟨18, _⟩ => ⟨S8x512x512x32, .f32⟩
  | .hbm, ⟨19, _⟩ => ⟨S8x512x512x32, .f32⟩
  | .hbm, ⟨20, _⟩ => ⟨S_, .f32⟩
  | .hbm, ⟨21, _⟩ => ⟨S8x512x512, .f32⟩
  | .hbm, ⟨22, _⟩ => ⟨S8x512x512x1, .f32⟩
  | .hbm, ⟨23, _⟩ => ⟨S8x512x512x1, .f32⟩
  | .hbm, ⟨24, _⟩ => ⟨S8x512x512x1, .f32⟩
  | _, _ => ⟨S8x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  shapeCasts_S1x16x16x32_S1x1x1x16x1x16x1x32 : S1x16x16x32.ShapeCasts S1x1x1x16x1x16x1x32
  bcast_S1x1x1x16x1x16x1x32_S1x1x32x16x32x16x1x32_0_1_2_3_4_5_6_7 : S1x1x1x16x1x16x1x32.BroadcastsInDim S1x1x32x16x32x16x1x32 (![0, 1, 2, 3, 4, 5, 6, 7] : Fin 8 → Fin S1x1x32x16x32x16x1x32.rank)
  shapeCasts_S1x1x32x16x32x16x1x32_S1x512x512x32 : S1x1x32x16x32x16x1x32.ShapeCasts S1x512x512x32
  bcast_S_S1x16x16x32 : S_.BroadcastsInDim S1x16x16x32 (![] : Fin 0 → Fin S1x16x16x32.rank)
  bcast_S_S1 : S_.BroadcastsInDim S1 (![] : Fin 0 → Fin S1.rank)
  concatenates_S1_S1_S2_d0 : Shape.Concatenates [S1, S1] S2 0
  shapeCasts_S1x16x16x1_S1x1x1x16x1x16x1x1 : S1x16x16x1.ShapeCasts S1x1x1x16x1x16x1x1
  bcast_S1x1x1x16x1x16x1x1_S1x1x32x16x32x16x1x1_0_1_2_3_4_5_6_7 : S1x1x1x16x1x16x1x1.BroadcastsInDim S1x1x32x16x32x16x1x1 (![0, 1, 2, 3, 4, 5, 6, 7] : Fin 8 → Fin S1x1x32x16x32x16x1x1.rank)
  shapeCasts_S1x1x32x16x32x16x1x1_S1x512x512x1 : S1x1x32x16x32x16x1x1.ShapeCasts S1x512x512x1
  bcast_S1x512x512x32_S8x512x512x32_0_1_2_3 : S1x512x512x32.BroadcastsInDim S8x512x512x32 (![0, 1, 2, 3] : Fin 4 → Fin S8x512x512x32.rank)
  reducesTo_S8x512x512x32_S8x512x512_d3 : S8x512x512x32.ReducesTo [3] S8x512x512
  h_S_ : 0 < S_.numel
  bcast_S8x512x512_S8x512x512x1_0_1_2 : S8x512x512.BroadcastsInDim S8x512x512x1 (![0, 1, 2] : Fin 3 → Fin S8x512x512x1.rank)
  bcast_S1x512x512x1_S8x512x512x1_0_1_2_3 : S1x512x512x1.BroadcastsInDim S8x512x512x1 (![0, 1, 2, 3] : Fin 4 → Fin S8x512x512x1.rank)
  scatter_S1x512x512x32_S2_S1x16x16x32_0123_n_12_0_wf : ScatterDims.WF S1x512x512x32 S2 S1x16x16x32 [0, 1, 2, 3] [] [1, 2] 0

variable [Facts₀]

def scatter_S1x512x512x32_S2_S1x16x16x32_0123_n_12_0 : ScatterDims S1x512x512x32 S2 S1x16x16x32 where
  updateWindowDims := [0, 1, 2, 3]
  insertedWindowDims := []
  scatterDimsToOperandDims := [1, 2]
  indexVectorDim := 0
  wf := scatter_S1x512x512x32_S2_S1x16x16x32_0123_n_12_0_wf

class Facts : Prop extends Facts₀ where

variable [Facts]
-- ==== Proof.KernelBlock.lean ====
/-
  The kernel body's two stored values, read at one element.

  A grid point holds a 64-row slab of the image with pixels and channels merged into one axis of 512 · 32 = 16384
  lanes. The body multiplies the slab of the input by the slab of the filter lane by lane (the `weighted` block), and
  for the `filtered` block views the 16384 lanes of a row again as 512 pixels of 32 channels, sums each pixel's
  channels, and adds the bias slab. At the exact values the lane sum is the plain finite sum over the 32 channels.
-/
import proofs.«159069_j8443905704514_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- Lane `p · 32 + k` of a row is channel `k` of pixel `p`. -/
def lane (p : Fin 512) (k : Fin 32) : Fin 16384 := ⟨p.val * 32 + k.val, by have := p.isLt; have := k.isLt; omega⟩

/-- The lane-by-lane product of the two slabs, rows and lanes as a matrix: input times filter. -/
theorem prod_apply (f x : FVec Ideal S1x64x16384 .f32) (r : Fin 64) (q : Fin 16384) :
    k0_pay1 (F := Ideal) f x (ix2 r q) = x (ix3 (0 : Fin 1) r q) * f (ix3 (0 : Fin 1) r q) := by
  unfold k0_pay1
  show (shapeCast S64x16384 x shapeCasts_S1x64x16384_S64x16384 (ix2 r q)) * (shapeCast S64x16384 f shapeCasts_S1x64x16384_S64x16384 (ix2 r q)) = _
  rw [shapeCast_1ab_ab_apply, shapeCast_1ab_ab_apply]

/-- The `weighted` block at row `r`, lane `q`: input times filter there. -/
theorem weighted_apply (f x : FVec Ideal S1x64x16384 .f32) (u : Fin 1) (r : Fin 64) (q : Fin 16384) :
    k0_pay2 (F := Ideal) f x (ix3 u r q) = x (ix3 (0 : Fin 1) r q) * f (ix3 (0 : Fin 1) r q) := by
  unfold k0_pay2
  show shapeCast S1x64x16384 (k0_pay1 (F := Ideal) f x) shapeCasts_S64x16384_S1x64x16384 (ix3 u r q) = _
  rw [shapeCast_ab_1ab_apply, prod_apply]

/-- A row's 16384 lanes viewed as 512 pixels of 32 channels: pixel `p`, channel `k` is lane `p · 32 + k`. -/
theorem pixels_apply (P : FVec Ideal S64x16384 .f32) (h : S64x16384.ShapeCasts S64x512x32) (r : Fin 64) (p : Fin 512) (k : Fin 32) :
    shapeCast S64x512x32 P h (ix3 r p k) = P (ix2 r (lane p k)) :=
  shapeCast_apply P h _ _ (by
    rw [Shape.rowMajor_val_two, Shape.rowMajor_val_three]
    show r.val * 16384 + (p.val * 32 + k.val) = (r.val * 512 + p.val) * 32 + k.val
    omega)

/-- The channel sum from the zero word is the plain sum over the 32 channels. -/
theorem channelSum_apply (Q : FVec Ideal S64x512x32 .f32) (h : S64x512x32.Reduces [2] S64x512) (hφ : FKind.Formats .f32)
    (hacc : (0x00000000#32 : BitVec 32) = 0x00000000#32) (r : Fin 64) (p : Fin 512) :
    multiReduction (F := Ideal) .add [2] S64x512 Q 0x00000000#32 h hφ hacc (ix2 r p) = ∑ k : Fin 32, Q (ix3 r p k) := by
  refine (Ideal.multiReduction_add_single Q 0x00000000#32 h hφ hacc (ix2 r p)).trans ?_
  refine Finset.sum_congr rfl fun k _ => congrArg Q ?_
  funext c; apply Fin.ext
  match c with
  | ⟨0, _⟩ => rfl
  | ⟨1, _⟩ => rfl
  | ⟨2, _⟩ => rfl

/-- The `filtered` block at row `r`, pixel `p`: the channel sum of input times filter, plus the bias there. -/
theorem filtered_apply (f x : FVec Ideal S1x64x16384 .f32) (b : FVec Ideal S64x512 .f32) (u : Fin 1) (r : Fin 64) (p : Fin 512) :
    k0_pay3 (F := Ideal) f x b (ix3 u r p)
      = (∑ k : Fin 32, x (ix3 (0 : Fin 1) r (lane p k)) * f (ix3 (0 : Fin 1) r (lane p k))) + b (ix2 r p) := by
  unfold k0_pay3
  show shapeCast S1x64x512 (addf (multiReduction (F := Ideal) .add [2] S64x512 (shapeCast S64x512x32 (k0_pay1 (F := Ideal) f x) shapeCasts_S64x16384_S64x512x32) 0x00000000#32 reduces_S64x512x32_S64x512 (.inl rfl) rfl)
    (shapeCast S64x512 b shapeCasts_S64x512_S64x512)) shapeCasts_S64x512_S1x64x512 (ix3 u r p) = _
  rw [shapeCast_ab_1ab_apply, shapeCast_self]
  show (multiReduction (F := Ideal) .add [2] S64x512 (shapeCast S64x512x32 (k0_pay1 (F := Ideal) f x) shapeCasts_S64x16384_S64x512x32) 0x00000000#32 reduces_S64x512x32_S64x512 (.inl rfl) rfl (ix2 r p)) + b (ix2 r p) = _
  refine congrArg (· + b (ix2 r p)) ?_
  refine (channelSum_apply _ _ _ _ r p).trans ?_
  refine Finset.sum_congr rfl fun k _ => ?_
  rw [pixels_apply, prod_apply]

end Cert.KernelIdeal.Block

end
-- ==== Proof.KernelSpec.lean ====
/-
  The two output arrays of the region as functions of the arrays it finds: the input with pixels and channels merged
  into 16384 lanes, the two-variant filter stack, and the bias slab.

  Row `h` of an image lies in slab `h / 64` at slab row `h % 64`; the first slab meets the filter variant 0 (the one
  with the rectified top-left patch), every other slab the variant 1.
-/
import proofs.«159069_j8443905704514_2_alg».proof.Proof.KernelBlock

noncomputable section

open scoped BigOperators

namespace Cert.KernelIdeal.Arrays

open Cert.KernelIdeal Cert.KernelIdeal.Block Idealize.ShloMosaic Idealize.ShloMosaic.ValueIdx

/-- The filter variant that row `h` of the image meets: the first slab's, or the common one. -/
def variant (h : Fin 512) : Fin 2 := ⟨min (h.val / 64) 1, by omega⟩
/-- The row of its 64-row slab at which row `h` of the image sits. -/
def slabRow (h : Fin 512) : Fin 64 := ⟨h.val % 64, by omega⟩

/-- `weighted`, lanes merged, at image `n`, row `h`, lane `q`: the input times the filter variant's slab. -/
def weightedAt (A13 : S2x64x16384.Idx → EReal) (A17 : S8x512x16384.Idx → EReal) (n : Fin 8) (h : Fin 512) (q : Fin 16384) : EReal :=
  A17 (ix3 n h q) * A13 (ix3 (variant h) (slabRow h) q)

/-- `filtered` at image `n`, row `h`, pixel `p`: the channel sum of those products plus the bias slab's entry. -/
def filteredAt (A13 : S2x64x16384.Idx → EReal) (A16 : S64x512.Idx → EReal) (A17 : S8x512x16384.Idx → EReal)
    (n : Fin 8) (h : Fin 512) (p : Fin 512) : EReal :=
  (∑ k : Fin 32, A17 (ix3 n h (lane p k)) * A13 (ix3 (variant h) (slabRow h) (lane p k))) + A16 (ix2 (slabRow h) p)

/-- The `weighted` array, lanes merged, as a function of its index. -/
def weightedArr (A13 : S2x64x16384.Idx → EReal) (A17 : S8x512x16384.Idx → EReal) : S8x512x16384.Idx → EReal :=
  fun i => weightedAt A13 A17 ⟨(i 0).val, (i 0).isLt⟩ ⟨(i 1).val, (i 1).isLt⟩ ⟨(i 2).val, (i 2).isLt⟩

/-- The `filtered` array, without its trailing unit axis, as a function of its index. -/
def filteredArr (A13 : S2x64x16384.Idx → EReal) (A16 : S64x512.Idx → EReal) (A17 : S8x512x16384.Idx → EReal) : S8x512x512.Idx → EReal :=
  fun i => filteredAt A13 A16 A17 ⟨(i 0).val, (i 0).isLt⟩ ⟨(i 1).val, (i 1).isLt⟩ ⟨(i 2).val, (i 2).isLt⟩

theorem weightedArr_apply (A13 : S2x64x16384.Idx → EReal) (A17 : S8x512x16384.Idx → EReal) (n : Fin 8) (h : Fin 512) (q : Fin 16384) :
    weightedArr A13 A17 (ix3 n h q) = weightedAt A13 A17 n h q := rfl

theorem filteredArr_apply (A13 : S2x64x16384.Idx → EReal) (A16 : S64x512.Idx → EReal) (A17 : S8x512x16384.Idx → EReal)
    (n : Fin 8) (h : Fin 512) (p : Fin 512) : filteredArr A13 A16 A17 (ix3 n h p) = filteredAt A13 A16 A17 n h p := rfl

end Cert.KernelIdeal.Arrays

end
-- ==== Proof.KernelArrays.lean ====
/-
  The two output arrays of the region, each as ONE function of the arrays the region finds.

  The grid has 8 × 8 points (slab of rows, image). At point (slab, image) the input and both outputs move one
  64-row slab of one image: block (image, slab, 0). The filter stack has two 64-row variants and the point takes
  variant min(slab, 1); the bias slab is the same at every point. So row `h` of image `n` is written by the point
  (h / 64, n) at block row `h % 64`, with filter variant min(h / 64, 1): the blocks are restrictions of one function
  of the array index, and they cover the arrays.
-/
import proofs.«159069_j8443905704514_2_alg».proof.Proof.Gen.KernelIdeal.Frame
import proofs.«159069_j8443905704514_2_alg».proof.Proof.KernelSpec

set_option maxRecDepth 16384

noncomputable section

open scoped BigOperators

namespace Cert.KernelIdeal.Arrays

open Cert.KernelIdeal Cert.KernelIdeal.Gen Cert.KernelIdeal.Block Idealize.ShloMosaic Idealize.ShloMosaic.TcCoe
open Idealize.ShloMosaic.ValueIdx Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 64 points: the input and both outputs move together, block (image, slab, 0);
    the filter's block is the variant min(slab, 1); the bias block does not move. -/
theorem idx_facts : ∀ t : Fin cfg0.N,
    win0_2.index t (0 : Fin 3) = win0_4.index t (0 : Fin 3) ∧ win0_2.index t (1 : Fin 3) = win0_4.index t (1 : Fin 3)
    ∧ win0_2.index t (2 : Fin 3) = 0 ∧ win0_4.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_0.index t (0 : Fin 3) = min (win0_4.index t (1 : Fin 3)) 1 ∧ win0_0.index t (1 : Fin 3) = 0 ∧ win0_0.index t (2 : Fin 3) = 0
    ∧ win0_1.index t (0 : Fin 2) = 0 ∧ win0_1.index t (1 : Fin 2) = 0
    ∧ win0_4.index t (0 : Fin 3) < 8 ∧ win0_4.index t (1 : Fin 3) < 8 :=
  (by decide +kernel : ∀ t : Fin grid0.N, _)

/-- Every (image, slab) is some point's block, for either output. -/
theorem idx_onto : ∀ (n : Fin 8) (s : Fin 8), ∃ t : Fin cfg0.N, win0_4.index t = ![n.val, s.val, 0] ∧ win0_3.index t = ![n.val, s.val, 0] :=
  (by decide +kernel : ∀ (n : Fin 8) (s : Fin 8), ∃ t : Fin grid0.N, win0_4.index t = ![n.val, s.val, 0] ∧ win0_3.index t = ![n.val, s.val, 0])

/-! ## An input block read at an element is the array read where the block sits -/

theorem filterBlock_read (c : Dev nD) (t : Fin cfg0.N) (y : S1x64x16384.Idx) :
    iblk m c 0 t y = V m c main_v13 (((cfg0.win 0).blk t).view.emb y) := by
  unfold iblk; rw [View.read_apply]; exact cast_eq _ _

theorem biasBlock_read (c : Dev nD) (t : Fin cfg0.N) (y : S64x512.Idx) :
    iblk m c 1 t y = V m c main_v16 (((cfg0.win 1).blk t).view.emb y) := by
  unfold iblk; rw [View.read_apply]; exact cast_eq _ _

theorem inputBlock_read (c : Dev nD) (t : Fin cfg0.N) (y : S1x64x16384.Idx) :
    iblk m c 2 t y = V m c main_v17 (((cfg0.win 2).blk t).view.emb y) := by
  unfold iblk; rw [View.read_apply]; exact cast_eq _ _

/-! ## The `weighted` array (output window 4) -/

/-- What point `t` writes back is its block of `weightedArr`. -/
theorem flushed4_eq (c : Dev nD) (t : Fin cfg0.N) :
    (dats m 0 c).flushed 4 t = ((cfg0.win 4).blk t).view.read (Elt Ideal) (weightedArr (V m c main_v13) (V m c main_v17)) := by
  show (cfg0.win 4).cut (grid0.coords t) ((dats m 0 c).after 4 t) = _
  rw [after0_4]
  unfold out0_4
  rw [View.canon_unit_zero hz3]
  simp only [View.ld_unit_zero (S := S1x64x16384) hz3]
  obtain ⟨e20, e21, e22, e42, e30, e31, e32, e00, e01, e02, e10, e11, b0, b1⟩ := idx_facts t
  funext j
  obtain ⟨u, r, q, rfl⟩ : ∃ (u : Fin 1) (r : Fin 64) (q : Fin 16384), j = ix3 u r q := ⟨j 0, j 1, j 2, eq_ix3 j⟩
  have hu : u.val = 0 := by omega
  have hr := r.isLt
  have hq := q.isLt
  refine (weighted_apply (iblk m c 0 t) (iblk m c 2 t) u r q).trans ?_
  have h2 : ((cfg0.win 2).blk t).view.emb (ix3 (0 : Fin 1) r q)
      = ix3 (⟨((((cfg0.win 4).blk t).view.emb (ix3 u r q)) 0).val, ((((cfg0.win 4).blk t).view.emb (ix3 u r q)) 0).isLt⟩ : Fin 8)
          (⟨((((cfg0.win 4).blk t).view.emb (ix3 u r q)) 1).val, ((((cfg0.win 4).blk t).view.emb (ix3 u r q)) 1).isLt⟩ : Fin 512)
          (⟨((((cfg0.win 4).blk t).view.emb (ix3 u r q)) 2).val, ((((cfg0.win 4).blk t).view.emb (ix3 u r q)) 2).isLt⟩ : Fin 16384) := by
    funext a; apply Fin.ext
    match a with
    | ⟨0, _⟩ => show win0_2.index t (0 : Fin 3) * 1 + 1 * 0 = win0_4.index t (0 : Fin 3) * 1 + 1 * u.val; omega
    | ⟨1, _⟩ => show win0_2.index t (1 : Fin 3) * 64 + 1 * r.val = win0_4.index t (1 : Fin 3) * 64 + 1 * r.val; omega
    | ⟨2, _⟩ => show win0_2.index t (2 : Fin 3) * 16384 + 1 * q.val = win0_4.index t (2 : Fin 3) * 16384 + 1 * q.val; omega
  have h0 : ((cfg0.win 0).blk t).view.emb (ix3 (0 : Fin 1) r q)
      = ix3 (variant ⟨((((cfg0.win 4).blk t).view.emb (ix3 u r q)) 1).val, ((((cfg0.win 4).blk t).view.emb (ix3 u r q)) 1).isLt⟩)
          (slabRow ⟨((((cfg0.win 4).blk t).view.emb (ix3 u r q)) 1).val, ((((cfg0.win 4).blk t).view.emb (ix3 u r q)) 1).isLt⟩)
          (⟨((((cfg0.win 4).blk t).view.emb (ix3 u r q)) 2).val, ((((cfg0.win 4).blk t).view.emb (ix3 u r q)) 2).isLt⟩ : Fin 16384) := by
    funext a; apply Fin.ext
    match a with
    | ⟨0, _⟩ => show win0_0.index t (0 : Fin 3) * 1 + 1 * 0 = min ((win0_4.index t (1 : Fin 3) * 64 + 1 * r.val) / 64) 1; omega
    | ⟨1, _⟩ => show win0_0.index t (1 : Fin 3) * 64 + 1 * r.val = (win0_4.index t (1 : Fin 3) * 64 + 1 * r.val) % 64; omega
    | ⟨2, _⟩ => show win0_0.index t (2 : Fin 3) * 16384 + 1 * q.val = win0_4.index t (2 : Fin 3) * 16384 + 1 * q.val; omega
  have hx : iblk m c 2 t (ix3 (0 : Fin 1) r q)
      = V m c main_v17 (ix3 (⟨((((cfg0.win 4).blk t).view.emb (ix3 u r q)) 0).val, ((((cfg0.win 4).blk t).view.emb (ix3 u r q)) 0).isLt⟩ : Fin 8)
          (⟨((((cfg0.win 4).blk t).view.emb (ix3 u r q)) 1).val, ((((cfg0.win 4).blk t).view.emb (ix3 u r q)) 1).isLt⟩ : Fin 512)
          (⟨((((cfg0.win 4).blk t).view.emb (ix3 u r q)) 2).val, ((((cfg0.win 4).blk t).view.emb (ix3 u r q)) 2).isLt⟩ : Fin 16384)) :=
    (inputBlock_read m c t (ix3 (0 : Fin 1) r q)).trans (congrArg (V m c main_v17) h2)
  have hf : iblk m c 0 t (ix3 (0 : Fin 1) r q)
      = V m c main_v13 (ix3 (variant ⟨((((cfg0.win 4).blk t).view.emb (ix3 u r q)) 1).val, ((((cfg0.win 4).blk t).view.emb (ix3 u r q)) 1).isLt⟩)
          (slabRow ⟨((((cfg0.win 4).blk t).view.emb (ix3 u r q)) 1).val, ((((cfg0.win 4).blk t).view.emb (ix3 u r q)) 1).isLt⟩)
          (⟨((((cfg0.win 4).blk t).view.emb (ix3 u r q)) 2).val, ((((cfg0.win 4).blk t).view.emb (ix3 u r q)) 2).isLt⟩ : Fin 16384)) :=
    (filterBlock_read m c t (ix3 (0 : Fin 1) r q)).trans (congrArg (V m c main_v13) h0)
  exact congrArg₂ (fun a b : EReal => a * b) hx hf

/-- An index of the array is in point `t`'s block iff each coordinate is in the block's range on its axis. -/
theorem mem_blk4 (t : Fin cfg0.N) (i : S8x512x16384.Idx) :
    i ∈ ((cfg0.win 4).blk t).view.set ↔ ∀ a : Fin 3, win0_4.index t a * S1x64x16384.size a ≤ (i a).val ∧ (i a).val < win0_4.index t a * S1x64x16384.size a + S1x64x16384.size a := by
  show i ∈ ((View.whole main_v18_1).slice (win0_4.rect t)).set ↔ _
  rw [View.set_slice_whole, Rect.mem_set_unit]
  exact Iff.rfl

/-- Every index of the `weighted` array lies in the block of the point (row / 64, image). -/
theorem cover4 (i : S8x512x16384.Idx) : ∃ t : Fin cfg0.N, (cfg0.win 4).flush t = true ∧ i ∈ ((cfg0.win 4).blk t).view.set := by
  have hi0 : (i 0).val < 8 := (i 0).isLt
  have hi1 : (i 1).val < 512 := (i 1).isLt
  have hi2 : (i 2).val < 16384 := (i 2).isLt
  obtain ⟨t, ht, -⟩ := idx_onto ⟨(i 0).val, hi0⟩ ⟨(i 1).val / 64, by omega⟩
  have q0 : win0_4.index t (0 : Fin 3) = (i 0).val := congrFun ht 0
  have q1 : win0_4.index t (1 : Fin 3) = (i 1).val / 64 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 16384 ≤ (i 2).val ∧ (i 2).val < win0_4.index t (2 : Fin 3) * 16384 + 16384; omega

/-- After the region the `weighted` array, lanes merged, is `weightedArr` of the filter stack and the input as found. -/
theorem final4 (c : Dev nD) : (dats m 0 c).arrAt 4 cfg0.N = weightedArr (V m c main_v13) (V m c main_v17) :=
  (dats m 0 c).arrAt_eq_of_cover 4 (weightedArr (V m c main_v13) (V m c main_v17)) (fun t _ => flushed4_eq m c t) cover4

/-! ## The `filtered` array (output window 3) -/

/-- What point `t` writes back is its block of `filteredArr`. -/
theorem flushed3_eq (c : Dev nD) (t : Fin cfg0.N) :
    (dats m 0 c).flushed 3 t = ((cfg0.win 3).blk t).view.read (Elt Ideal) (filteredArr (V m c main_v13) (V m c main_v16) (V m c main_v17)) := by
  show (cfg0.win 3).cut (grid0.coords t) ((dats m 0 c).after 3 t) = _
  rw [after0_3]
  unfold out0_3
  rw [View.canon_unit_zero hz3]
  simp only [View.ld_unit_zero (S := S1x64x16384) hz3, View.ld_unit_zero (S := S64x512) hz2]
  obtain ⟨e20, e21, e22, e42, e30, e31, e32, e00, e01, e02, e10, e11, b0, b1⟩ := idx_facts t
  funext j
  obtain ⟨u, r, p, rfl⟩ : ∃ (u : Fin 1) (r : Fin 64) (p : Fin 512), j = ix3 u r p := ⟨j 0, j 1, j 2, eq_ix3 j⟩
  have hu : u.val = 0 := by omega
  have hr := r.isLt
  have hp := p.isLt
  refine (filtered_apply (iblk m c 0 t) (iblk m c 2 t) (iblk m c 1 t) u r p).trans ?_
  have h2 : ∀ k : Fin 32, ((cfg0.win 2).blk t).view.emb (ix3 (0 : Fin 1) r (lane p k))
      = ix3 (⟨((((cfg0.win 3).blk t).view.emb (ix3 u r p)) 0).val, ((((cfg0.win 3).blk t).view.emb (ix3 u r p)) 0).isLt⟩ : Fin 8)
          (⟨((((cfg0.win 3).blk t).view.emb (ix3 u r p)) 1).val, ((((cfg0.win 3).blk t).view.emb (ix3 u r p)) 1).isLt⟩ : Fin 512)
          (lane ⟨((((cfg0.win 3).blk t).view.emb (ix3 u r p)) 2).val, ((((cfg0.win 3).blk t).view.emb (ix3 u r p)) 2).isLt⟩ k) := by
    intro k
    have hk := k.isLt
    funext a; apply Fin.ext
    match a with
    | ⟨0, _⟩ => show win0_2.index t (0 : Fin 3) * 1 + 1 * 0 = win0_3.index t (0 : Fin 3) * 1 + 1 * u.val; omega
    | ⟨1, _⟩ => show win0_2.index t (1 : Fin 3) * 64 + 1 * r.val = win0_3.index t (1 : Fin 3) * 64 + 1 * r.val; omega
    | ⟨2, _⟩ => show win0_2.index t (2 : Fin 3) * 16384 + 1 * (p.val * 32 + k.val) = (win0_3.index t (2 : Fin 3) * 512 + 1 * p.val) * 32 + k.val; omega
  have h0 : ∀ k : Fin 32, ((cfg0.win 0).blk t).view.emb (ix3 (0 : Fin 1) r (lane p k))
      = ix3 (variant ⟨((((cfg0.win 3).blk t).view.emb (ix3 u r p)) 1).val, ((((cfg0.win 3).blk t).view.emb (ix3 u r p)) 1).isLt⟩)
          (slabRow ⟨((((cfg0.win 3).blk t).view.emb (ix3 u r p)) 1).val, ((((cfg0.win 3).blk t).view.emb (ix3 u r p)) 1).isLt⟩)
          (lane ⟨((((cfg0.win 3).blk t).view.emb (ix3 u r p)) 2).val, ((((cfg0.win 3).blk t).view.emb (ix3 u r p)) 2).isLt⟩ k) := by
    intro k
    have hk := k.isLt
    funext a; apply Fin.ext
    match a with
    | ⟨0, _⟩ => show win0_0.index t (0 : Fin 3) * 1 + 1 * 0 = min ((win0_3.index t (1 : Fin 3) * 64 + 1 * r.val) / 64) 1; omega
    | ⟨1, _⟩ => show win0_0.index t (1 : Fin 3) * 64 + 1 * r.val = (win0_3.index t (1 : Fin 3) * 64 + 1 * r.val) % 64; omega
    | ⟨2, _⟩ => show win0_0.index t (2 : Fin 3) * 16384 + 1 * (p.val * 32 + k.val) = (win0_3.index t (2 : Fin 3) * 512 + 1 * p.val) * 32 + k.val; omega
  have h1 : ((cfg0.win 1).blk t).view.emb (ix2 r p)
      = ix2 (slabRow ⟨((((cfg0.win 3).blk t).view.emb (ix3 u r p)) 1).val, ((((cfg0.win 3).blk t).view.emb (ix3 u r p)) 1).isLt⟩)
          (⟨((((cfg0.win 3).blk t).view.emb (ix3 u r p)) 2).val, ((((cfg0.win 3).blk t).view.emb (ix3 u r p)) 2).isLt⟩ : Fin 512) := by
    funext a; apply Fin.ext
    match a with
    | ⟨0, _⟩ => show win0_1.index t (0 : Fin 2) * 64 + 1 * r.val = (win0_3.index t (1 : Fin 3) * 64 + 1 * r.val) % 64; omega
    | ⟨1, _⟩ => show win0_1.index t (1 : Fin 2) * 512 + 1 * p.val = win0_3.index t (2 : Fin 3) * 512 + 1 * p.val; omega
  unfold filteredArr filteredAt
  refine congrArg₂ (fun a b : EReal => a + b) (Finset.sum_congr rfl fun k _ => congrArg₂ (fun a b : EReal => a * b) ?_ ?_) ?_
  · exact (inputBlock_read m c t (ix3 (0 : Fin 1) r (lane p k))).trans (congrArg (V m c main_v17) (h2 k))
  · exact (filterBlock_read m c t (ix3 (0 : Fin 1) r (lane p k))).trans (congrArg (V m c main_v13) (h0 k))
  · exact (biasBlock_read m c t (ix2 r p)).trans (congrArg (V m c main_v16) h1)

/-- An index of the array is in point `t`'s block iff each coordinate is in the block's range on its axis. -/
theorem mem_blk3 (t : Fin cfg0.N) (i : S8x512x512.Idx) :
    i ∈ ((cfg0.win 3).blk t).view.set ↔ ∀ a : Fin 3, win0_3.index t a * S1x64x512.size a ≤ (i a).val ∧ (i a).val < win0_3.index t a * S1x64x512.size a + S1x64x512.size a := by
  show i ∈ ((View.whole main_v18_0).slice (win0_3.rect t)).set ↔ _
  rw [View.set_slice_whole, Rect.mem_set_unit]
  exact Iff.rfl

/-- Every index of the `filtered` array lies in the block of the point (row / 64, image). -/
theorem cover3 (i : S8x512x512.Idx) : ∃ t : Fin cfg0.N, (cfg0.win 3).flush t = true ∧ i ∈ ((cfg0.win 3).blk t).view.set := by
  have hi0 : (i 0).val < 8 := (i 0).isLt
  have hi1 : (i 1).val < 512 := (i 1).isLt
  have hi2 : (i 2).val < 512 := (i 2).isLt
  obtain ⟨t, -, ht⟩ := idx_onto ⟨(i 0).val, hi0⟩ ⟨(i 1).val / 64, by omega⟩
  have q0 : win0_3.index t (0 : Fin 3) = (i 0).val := congrFun ht 0
  have q1 : win0_3.index t (1 : Fin 3) = (i 1).val / 64 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 512 ≤ (i 2).val ∧ (i 2).val < win0_3.index t (2 : Fin 3) * 512 + 512; omega

/-- After the region the `filtered` array, without its unit axis, is `filteredArr` of the arrays as found. -/
theorem final3 (c : Dev nD) : (dats m 0 c).arrAt 3 cfg0.N = filteredArr (V m c main_v13) (V m c main_v16) (V m c main_v17) :=
  (dats m 0 c).arrAt_eq_of_cover 3 (filteredArr (V m c main_v13) (V m c main_v16) (V m c main_v17)) (fun t _ => flushed3_eq m c t) cover3

end Cert.KernelIdeal.Arrays

end
-- ==== Proof.KernelHost.lean ====
/-
  The three arrays the region finds, as the host computes them from the arguments.

  Before the launch the host tiles the 16 × 16 × 32 weight 4 × 32 times into a 64 × 512 × 32 slab, overwrites the
  top-left 16 × 16 patch of one copy with the rectified weight, stacks the patched and the plain slab and merges
  pixels and channels into 16384 lanes; tiles the 16 × 16 bias 4 × 32 times into a 64 × 512 slab; and merges the input's
  pixels and channels into lanes.
-/
import proofs.«159069_j8443905704514_2_alg».proof.Proof.Gen.KernelIdeal.Frame
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem Idealize.ShloMosaic.StableHlo

/-- The weight without its leading unit axis. -/
def weight3 (W : S1x16x16x32.Idx → EReal) : S16x16x32.Idx → EReal :=
  shapeCast S16x16x32 W shapeCasts_S1x16x16x32_S16x16x32

/-- The weight tiled 4 × 32 times: a 64 × 512 slab of 32-channel pixels. -/
def plainSlab (W : S1x16x16x32.Idx → EReal) : S64x512x32.Idx → EReal :=
  shapeCast S64x512x32 (broadcastInDim S4x16x32x16x1x32 ![0, 1, 2, 3, 4, 5] bcast_S1x16x1x16x1x32_S4x16x32x16x1x32_0_1_2_3_4_5
    (shapeCast S1x16x1x16x1x32 (weight3 W) shapeCasts_S16x16x32_S1x16x1x16x1x32)) shapeCasts_S4x16x32x16x1x32_S64x512x32

/-- The rectified weight: its maximum with zero, element by element. -/
def rectified (W : S1x16x16x32.Idx → EReal) : S16x16x32.Idx → EReal :=
  maximumf (F := Ideal) (weight3 W) (broadcastInDim S16x16x32 ![] bcast_S_S16x16x32 (constant (F := Ideal) S_ .f32 0x00000000#32))

/-- The one scatter index: the pair (0, 0). -/
def origin : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

/-- The slab with its top-left patch overwritten by the rectified weight. -/
def patchedSlab (W : S1x16x16x32.Idx → EReal) : S64x512x32.Idx → EReal :=
  Host.scatter scatter_S64x512x32_S2_S16x16x32_012_n_01_0 (fun _ b => b) (plainSlab W) origin (rectified W)

/-- The filter stack: the patched slab, then the plain one, pixels and channels merged into lanes. -/
def stackOf (W : S1x16x16x32.Idx → EReal) : S2x64x16384.Idx → EReal :=
  shapeCast S2x64x16384 (concatenate S2x64x512x32 0
    [⟨S1x64x512x32, broadcastInDim S1x64x512x32 ![1, 2, 3] bcast_S64x512x32_S1x64x512x32_1_2_3 (patchedSlab W)⟩,
     ⟨S1x64x512x32, broadcastInDim S1x64x512x32 ![1, 2, 3] bcast_S64x512x32_S1x64x512x32_1_2_3 (plainSlab W)⟩]
    concatenates_S1x64x512x32_S1x64x512x32_S2x64x512x32_d0) shapeCasts_S2x64x512x32_S2x64x16384

/-- The bias tiled 4 × 32 times: a 64 × 512 slab. -/
def biasOf (Bv : S1x16x16x1.Idx → EReal) : S64x512.Idx → EReal :=
  shapeCast S64x512 (broadcastInDim S4x16x32x16 ![0, 1, 2, 3] bcast_S1x16x1x16_S4x16x32x16_0_1_2_3
    (shapeCast S1x16x1x16 (shapeCast S16x16 Bv shapeCasts_S1x16x16x1_S16x16) shapeCasts_S16x16_S1x16x1x16)) shapeCasts_S4x16x32x16_S64x512

/-- The input with pixels and channels merged into lanes. -/
def flatOf (X : S8x512x512x32.Idx → EReal) : S8x512x16384.Idx → EReal :=
  shapeCast S8x512x16384 X shapeCasts_S8x512x512x32_S8x512x16384

variable (m : (ℓ : Loc nD τ sig) → Buf (Elt Ideal) ℓ)

/-- The region finds the filter stack of the weight argument. -/
theorem V_stack (c : Dev nD) : (V m c main_v13 : S2x64x16384.Idx → EReal) = stackOf (m ((c : Thread nD τ).loc main_arg1)) := by
  dsimp only [Gen.V, Gen.V0]
  simp only [Gen.hostOps0, Gen.hostOps0_1, Gen.hostOps0_2, List.flatten_cons, List.flatten_nil, List.append_nil, List.cons_append,
    List.nil_append]
  after_results
  rfl

/-- The region finds the bias slab of the bias argument. -/
theorem V_bias (c : Dev nD) : (V m c main_v16 : S64x512.Idx → EReal) = biasOf (m ((c : Thread nD τ).loc main_arg2)) := by
  dsimp only [Gen.V, Gen.V0]
  simp only [Gen.hostOps0, Gen.hostOps0_1, Gen.hostOps0_2, List.flatten_cons, List.flatten_nil, List.append_nil, List.cons_append,
    List.nil_append]
  after_results
  rfl

/-- The region finds the input with its lanes merged. -/
theorem V_flat (c : Dev nD) : (V m c main_v17 : S8x512x16384.Idx → EReal) = flatOf (m ((c : Thread nD τ).loc main_arg0)) := by
  dsimp only [Gen.V, Gen.V0]
  simp only [Gen.hostOps0, Gen.hostOps0_1, Gen.hostOps0_2, List.flatten_cons, List.flatten_nil, List.append_nil, List.cons_append,
    List.nil_append]
  after_results
  rfl

end Cert.KernelIdeal.Host

end
-- ==== Proof.KernelTail.lean ====
/-
  The kernel program's two results, named. After its one pipelined region the program reshapes the region's two output
  arrays: the per-pixel sums `[8, 512, 512]` to `[8, 512, 512, 1]` and the products `[8, 512, 16384]` to
  `[8, 512, 512, 32]`. Each result buffer therefore ends holding the reshape of what the region left in the corresponding
  array, and the three argument buffers end as launched.
-/
import proofs.«159069_j8443905704514_2_alg».proof.Proof.Gen.KernelIdeal.Frame
import Idealize.ShloMosaic.Lib.StableHlo.Run

noncomputable section

namespace Cert.KernelIdeal.Tail

open Cert.KernelIdeal Cert.KernelIdeal.Gen Idealize.ShloMosaic Idealize.ShloMosaic.TcCoe Idealize.SL.Sem
  Idealize.ShloMosaic.StableHlo

variable {F : FTy → Type} [FloatOps F]

variable (m : (ℓ : Loc nD τ sig) → Buf (Elt F) ℓ) (ρ : Dev nD → PrngReg)

/-- The first result: the reshape of the region's first output array (window 3). The second reshape writes another
    buffer; the first reads the array the region left. -/
theorem tail_filtered (c : Dev nD) : Pipeline.afterTail₀ cfgs (dats m) 0 (V0 m) [hostOps1] c main_v19
      = shapeCast S8x512x512x1 ((dats m 0 c).arrAt 3 cfg0.N) shapeCasts_S8x512x512_S8x512x512x1 := by
  unfold Pipeline.afterTail₀
  show StableHlo.after hostOps1 _ (Proc.devRef .tc main_v19) = _
  after_results
  have h3 : Pipeline.withArrays (cfgs 0).spec c (V0 m c) (fun w => (dats m 0 c).arrAt w (cfgs 0).N)
      (Proc.devRef .tc main_v18_0) = (dats m 0 c).arrAt 3 cfg0.N :=
    Pipeline.withArrays_arr spec0 launch0.win.arr_inj c (V0 m c) (fun w => (dats m 0 c).arrAt w cfg0.N) 3
  rw [h3]
  rfl

/-- The second result: the reshape of the region's second output array (window 4). -/
theorem tail_weighted (c : Dev nD) : Pipeline.afterTail₀ cfgs (dats m) 0 (V0 m) [hostOps1] c main_v20
      = shapeCast S8x512x512x32 ((dats m 0 c).arrAt 4 cfg0.N) shapeCasts_S8x512x16384_S8x512x512x32 := by
  unfold Pipeline.afterTail₀
  show StableHlo.after hostOps1 _ (Proc.devRef .tc main_v20) = _
  after_results
  have h4 : Pipeline.withArrays (cfgs 0).spec c (V0 m c) (fun w => (dats m 0 c).arrAt w (cfgs 0).N)
      (Proc.devRef .tc main_v18_1) = (dats m 0 c).arrAt 4 cfg0.N :=
    Pipeline.withArrays_arr spec0 launch0.win.arr_inj c (V0 m c) (fun w => (dats m 0 c).arrAt w cfg0.N) 4
  rw [h4]
  rfl

/-- The run with its results named: every weakly fair execution of the program ends with the two result buffers at the
    reshapes of the region's two output arrays and the three argument buffers as launched. -/
theorem run_arrays : θ_run defs (onTc (τ := τ) (main (F := F))) ⟨m, fun _ => 0, ρ⟩ fun r => ∀ c : Dev nD,
      r.2.mem ((c.tc : Thread nD τ).loc main_v19)
        = shapeCast S8x512x512x1 ((dats m 0 c).arrAt 3 cfg0.N) shapeCasts_S8x512x512_S8x512x512x1
      ∧ r.2.mem ((c.tc : Thread nD τ).loc main_v20)
        = shapeCast S8x512x512x32 ((dats m 0 c).arrAt 4 cfg0.N) shapeCasts_S8x512x16384_S8x512x512x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans (tail_filtered m c),
      ((h c).2 main_v20 (Pipeline.mem_restRefs_of main_v20 (by decide) (by decide))).trans (tail_weighted m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.Spec.lean ====
/-
  The linear filter, as one function of its three arguments.

  The filter image over the 512 × 512 grid of 32-channel pixels repeats the 16 × 16 weight tile with period 16 in both
  directions, except on the top-left 16 × 16 patch, which carries the rectified weight max(w, 0). `weighted` is the input
  times the filter, pixel by pixel and channel by channel; `filtered` is, per pixel, the sum of those products over the
  32 channels plus the bias tile repeated with the same period.
-/
import Idealize.ShloMosaic.PureOps.Ideal
import Idealize.ShloMosaic.Lib.ValueIdx

noncomputable section

open scoped BigOperators

namespace Cert.LinFilter

open Idealize.ShloMosaic Idealize.ShloMosaic.ValueIdx

/-- A coordinate reduced modulo the tile's period. -/
def per (h : Fin 512) : Fin 16 := ⟨h.val % 16, Nat.mod_lt _ (by decide)⟩

/-- The filter at pixel (h, w), channel c. -/
def filt (W : (⟨4, ![1, 16, 16, 32]⟩ : Shape).Idx → EReal) (h w : Fin 512) (c : Fin 32) : EReal :=
  if hh : h.val < 16 ∧ w.val < 16 then max (W (ix4 (0 : Fin 1) (⟨h.val, hh.1⟩ : Fin 16) (⟨w.val, hh.2⟩ : Fin 16) c)) (Ideal.ofBits .f32 0x00000000#32)
  else W (ix4 (0 : Fin 1) (per h) (per w) c)

/-- `weighted` at image n, pixel (h, w), channel c. -/
def weightedAt (X : (⟨4, ![8, 512, 512, 32]⟩ : Shape).Idx → EReal) (W : (⟨4, ![1, 16, 16, 32]⟩ : Shape).Idx → EReal)
    (n : Fin 8) (h w : Fin 512) (c : Fin 32) : EReal :=
  X (ix4 n h w c) * filt W h w c

/-- `filtered` at image n, pixel (h, w). -/
def filteredAt (X : (⟨4, ![8, 512, 512, 32]⟩ : Shape).Idx → EReal) (W : (⟨4, ![1, 16, 16, 32]⟩ : Shape).Idx → EReal)
    (Bv : (⟨4, ![1, 16, 16, 1]⟩ : Shape).Idx → EReal) (n : Fin 8) (h w : Fin 512) : EReal :=
  (∑ k : Fin 32, X (ix4 n h w k) * filt W h w k) + Bv (ix4 (0 : Fin 1) (per h) (per w) (0 : Fin 1))

/-- The `weighted` result array. -/
def weighted (X : (⟨4, ![8, 512, 512, 32]⟩ : Shape).Idx → EReal) (W : (⟨4, ![1, 16, 16, 32]⟩ : Shape).Idx → EReal) :
    (⟨4, ![8, 512, 512, 32]⟩ : Shape).Idx → EReal :=
  fun i => weightedAt X W ⟨(i 0).val, (i 0).isLt⟩ ⟨(i 1).val, (i 1).isLt⟩ ⟨(i 2).val, (i 2).isLt⟩ ⟨(i 3).val, (i 3).isLt⟩

/-- The `filtered` result array (its last axis has one entry). -/
def filtered (X : (⟨4, ![8, 512, 512, 32]⟩ : Shape).Idx → EReal) (W : (⟨4, ![1, 16, 16, 32]⟩ : Shape).Idx → EReal)
    (Bv : (⟨4, ![1, 16, 16, 1]⟩ : Shape).Idx → EReal) : (⟨4, ![8, 512, 512, 1]⟩ : Shape).Idx → EReal :=
  fun i => filteredAt X W Bv ⟨(i 0).val, (i 0).isLt⟩ ⟨(i 1).val, (i 1).isLt⟩ ⟨(i 2).val, (i 2).isLt⟩

theorem weighted_apply (X : (⟨4, ![8, 512, 512, 32]⟩ : Shape).Idx → EReal) (W : (⟨4, ![1, 16, 16, 32]⟩ : Shape).Idx → EReal)
    (n : Fin 8) (h w : Fin 512) (c : Fin 32) : weighted X W (ix4 n h w c) = weightedAt X W n h w c := rfl

theorem filtered_apply (X : (⟨4, ![8, 512, 512, 32]⟩ : Shape).Idx → EReal) (W : (⟨4, ![1, 16, 16, 32]⟩ : Shape).Idx → EReal)
    (Bv : (⟨4, ![1, 16, 16, 1]⟩ : Shape).Idx → EReal) (n : Fin 8) (h w : Fin 512) (u : Fin 1) :
    filtered X W Bv (ix4 n h w u) = filteredAt X W Bv n h w := rfl

end Cert.LinFilter

end
-- ==== Proof.LibRank8.lean ====
/-
  Rank-8 indices by coordinates. `ix8` builds a rank-8 index from its eight coordinates, `eq_ix8` says every rank-8
  index is of that form, and `Shape.rowMajor_val_eight` spells its row-major position as one sum of products: rank 8 of
  `ix0` … `ix6` and of `Shape.rowMajor_val_one` … `Shape.rowMajor_val_six`. A file opens the namespace:
  `open Idealize.ShloMosaic.ValueIdx`.
-/
import Idealize.ShloMosaic.Lib.ValueIdx

namespace Idealize.ShloMosaic

/-- Rank 8: the row-major position as one sum of products. -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-8 index from its coordinates. -/
abbrev ix8 {n0 n1 n2 n3 n4 n5 n6 n7 : Nat} (a : Fin n0) (b : Fin n1) (c : Fin n2) (d : Fin n3) (e : Fin n4)
    (f : Fin n5) (g : Fin n6) (h : Fin n7) : (⟨8, ![n0, n1, n2, n3, n4, n5, n6, n7]⟩ : Shape).Idx :=
  fun k => match k with
    | ⟨0, _⟩ => a | ⟨1, _⟩ => b | ⟨2, _⟩ => c | ⟨3, _⟩ => d | ⟨4, _⟩ => e | ⟨5, _⟩ => f | ⟨6, _⟩ => g | ⟨7, _⟩ => h
/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl

end ValueIdx

end Idealize.ShloMosaic
-- ==== Proof.Tile.lean ====
/-
  A periodic tiling read at an index. `jnp.tile` of a small array prints as three layout operations: a reshape that
  gives every tiled axis a unit axis in front of it, a `broadcast_in_dim` that stretches each unit axis to the
  repetition count, and a reshape that merges each (repetition, tile) pair of axes into one. Element `(h, w, c)` of
  the result is element `(h mod 16, w mod 16, c)` of the tile: with `h = a·16 + p` and `w = b·16 + q`, the row-major
  position `((((a·16 + p)·32 + b)·16 + q)·1 + 0)·32 + c` of the stretched shape is the position
  `((a·16 + p)·512 + (b·16 + q))·32 + c` of the merged one, the stretch forgets `a` and `b`, and the first reshape
  keeps positions. The rank-4 tiles with a leading and a trailing axis kept (repetitions 1 × 32 × 32 × 1) go through rank 8
  the same way, with two more unit coordinates.
-/
import proofs.«159069_j8443905704514_2_alg».proof.Proof.LibRank8
import Idealize.ShloMosaic.Lib.Pipeline.Value
import Idealize.ShloMosaic.Lib.ValueIdx
import Idealize.ShloMosaic.Lib.ValueIdxRank6

namespace Cert.Tile

open Idealize.ShloMosaic Idealize.ShloMosaic.ValueIdx

variable {α : Type}

/-- A 16×16×32 tile repeated 4 × 32 × 1 times (`[16,16,32] → [1,16,1,16,1,32] → [4,16,32,16,1,32] → [64,512,32]`):
    element `(h, w, c)` is the tile's element `(h mod 16, w mod 16, c)`. -/
theorem tile_4_32_1_apply (W : (⟨3, ![16, 16, 32]⟩ : Shape).Idx → α)
    (h1 : (⟨3, ![16, 16, 32]⟩ : Shape).ShapeCasts ⟨6, ![1, 16, 1, 16, 1, 32]⟩)
    (hb : (⟨6, ![1, 16, 1, 16, 1, 32]⟩ : Shape).BroadcastsInDim ⟨6, ![4, 16, 32, 16, 1, 32]⟩
      (![0, 1, 2, 3, 4, 5] : Fin 6 → Fin (⟨6, ![4, 16, 32, 16, 1, 32]⟩ : Shape).rank))
    (h3 : (⟨6, ![4, 16, 32, 16, 1, 32]⟩ : Shape).ShapeCasts ⟨3, ![64, 512, 32]⟩)
    (h : Fin 64) (w : Fin 512) (c : Fin 32) :
    shapeCast ⟨3, ![64, 512, 32]⟩
        (broadcastInDim ⟨6, ![4, 16, 32, 16, 1, 32]⟩ ![0, 1, 2, 3, 4, 5] hb
          (shapeCast ⟨6, ![1, 16, 1, 16, 1, 32]⟩ W h1)) h3 (ix3 h w c)
      = W (ix3 (⟨h.val % 16, Nat.mod_lt _ (by decide)⟩ : Fin 16) (⟨w.val % 16, Nat.mod_lt _ (by decide)⟩ : Fin 16) c) := by
  have hh := h.isLt
  have hw := w.isLt
  have hc := c.isLt
  -- the merged index (h, w, c) sits at the stretched index (h / 16, h mod 16, w / 16, w mod 16, 0, c)
  refine (shapeCast_apply _ h3 (ix3 h w c)
    (ix6 (⟨h.val / 16, by omega⟩ : Fin 4) (⟨h.val % 16, Nat.mod_lt _ (by decide)⟩ : Fin 16)
      (⟨w.val / 16, by omega⟩ : Fin 32) (⟨w.val % 16, Nat.mod_lt _ (by decide)⟩ : Fin 16) (0 : Fin 1) c) ?_).trans ?_
  · rw [Shape.rowMajor_val_six, Shape.rowMajor_val_three]
    show (((((h.val / 16) * 16 + h.val % 16) * 32 + w.val / 16) * 16 + w.val % 16) * 1 + 0) * 32 + c.val
      = (h.val * 512 + w.val) * 32 + c.val
    omega
  -- the stretch forgets the two repetition coordinates
  refine (broadcastInDim_apply _ hb _ _
    (ix6 (0 : Fin 1) (⟨h.val % 16, Nat.mod_lt _ (by decide)⟩ : Fin 16) (0 : Fin 1)
      (⟨w.val % 16, Nat.mod_lt _ (by decide)⟩ : Fin 16) (0 : Fin 1) c) (fun a => match a with
    | ⟨0, _⟩ => by show 0 = if (1 : Nat) = 1 then 0 else h.val / 16; rw [if_pos rfl]
    | ⟨1, _⟩ => by show h.val % 16 = if (16 : Nat) = 1 then 0 else h.val % 16; rw [if_neg (by decide)]
    | ⟨2, _⟩ => by show 0 = if (1 : Nat) = 1 then 0 else w.val / 16; rw [if_pos rfl]
    | ⟨3, _⟩ => by show w.val % 16 = if (16 : Nat) = 1 then 0 else w.val % 16; rw [if_neg (by decide)]
    | ⟨4, _⟩ => by show 0 = if (1 : Nat) = 1 then 0 else 0; rw [if_pos rfl]
    | ⟨5, _⟩ => by show c.val = if (32 : Nat) = 1 then 0 else c.val; rw [if_neg (by decide)])).trans ?_
  -- the first reshape keeps row-major positions
  refine shapeCast_apply W h1 _ _ ?_
  rw [Shape.rowMajor_val_three, Shape.rowMajor_val_six]
  show (h.val % 16 * 16 + w.val % 16) * 32 + c.val
    = ((((0 * 16 + h.val % 16) * 1 + 0) * 16 + w.val % 16) * 1 + 0) * 32 + c.val
  omega

/-- A 16×16 tile repeated 4 × 32 times (`[16,16] → [1,16,1,16] → [4,16,32,16] → [64,512]`): element `(h, w)` is the
    tile's element `(h mod 16, w mod 16)`. -/
theorem tile_4_32_apply (Bv : (⟨2, ![16, 16]⟩ : Shape).Idx → α)
    (h1 : (⟨2, ![16, 16]⟩ : Shape).ShapeCasts ⟨4, ![1, 16, 1, 16]⟩)
    (hb : (⟨4, ![1, 16, 1, 16]⟩ : Shape).BroadcastsInDim ⟨4, ![4, 16, 32, 16]⟩
      (![0, 1, 2, 3] : Fin 4 → Fin (⟨4, ![4, 16, 32, 16]⟩ : Shape).rank))
    (h3 : (⟨4, ![4, 16, 32, 16]⟩ : Shape).ShapeCasts ⟨2, ![64, 512]⟩)
    (h : Fin 64) (w : Fin 512) :
    shapeCast ⟨2, ![64, 512]⟩
        (broadcastInDim ⟨4, ![4, 16, 32, 16]⟩ ![0, 1, 2, 3] hb (shapeCast ⟨4, ![1, 16, 1, 16]⟩ Bv h1)) h3 (ix2 h w)
      = Bv (ix2 (⟨h.val % 16, Nat.mod_lt _ (by decide)⟩ : Fin 16) (⟨w.val % 16, Nat.mod_lt _ (by decide)⟩ : Fin 16)) := by
  have hh := h.isLt
  have hw := w.isLt
  refine (shapeCast_apply _ h3 (ix2 h w)
    (ix4 (⟨h.val / 16, by omega⟩ : Fin 4) (⟨h.val % 16, Nat.mod_lt _ (by decide)⟩ : Fin 16)
      (⟨w.val / 16, by omega⟩ : Fin 32) (⟨w.val % 16, Nat.mod_lt _ (by decide)⟩ : Fin 16)) ?_).trans ?_
  · rw [Shape.rowMajor_val_four, Shape.rowMajor_val_two]
    show (((h.val / 16) * 16 + h.val % 16) * 32 + w.val / 16) * 16 + w.val % 16 = h.val * 512 + w.val
    omega
  refine (broadcastInDim_apply _ hb _ _
    (ix4 (0 : Fin 1) (⟨h.val % 16, Nat.mod_lt _ (by decide)⟩ : Fin 16) (0 : Fin 1)
      (⟨w.val % 16, Nat.mod_lt _ (by decide)⟩ : Fin 16)) (fun a => match a with
    | ⟨0, _⟩ => by show 0 = if (1 : Nat) = 1 then 0 else h.val / 16; rw [if_pos rfl]
    | ⟨1, _⟩ => by show h.val % 16 = if (16 : Nat) = 1 then 0 else h.val % 16; rw [if_neg (by decide)]
    | ⟨2, _⟩ => by show 0 = if (1 : Nat) = 1 then 0 else w.val / 16; rw [if_pos rfl]
    | ⟨3, _⟩ => by show w.val % 16 = if (16 : Nat) = 1 then 0 else w.val % 16; rw [if_neg (by decide)])).trans ?_
  refine shapeCast_apply Bv h1 _ _ ?_
  rw [Shape.rowMajor_val_two, Shape.rowMajor_val_four]
  show h.val % 16 * 16 + w.val % 16 = ((0 * 16 + h.val % 16) * 1 + 0) * 16 + w.val % 16
  omega

/-- A 1×16×16×32 tile repeated 1 × 32 × 32 × 1 times
    (`[1,16,16,32] → [1,1,1,16,1,16,1,32] → [1,1,32,16,32,16,1,32] → [1,512,512,32]`): element `(0, h, w, c)` is the
    tile's element `(0, h mod 16, w mod 16, c)`. -/
theorem tile_1_32_32_1_apply (W : (⟨4, ![1, 16, 16, 32]⟩ : Shape).Idx → α)
    (h1 : (⟨4, ![1, 16, 16, 32]⟩ : Shape).ShapeCasts ⟨8, ![1, 1, 1, 16, 1, 16, 1, 32]⟩)
    (hb : (⟨8, ![1, 1, 1, 16, 1, 16, 1, 32]⟩ : Shape).BroadcastsInDim ⟨8, ![1, 1, 32, 16, 32, 16, 1, 32]⟩
      (![0, 1, 2, 3, 4, 5, 6, 7] : Fin 8 → Fin (⟨8, ![1, 1, 32, 16, 32, 16, 1, 32]⟩ : Shape).rank))
    (h3 : (⟨8, ![1, 1, 32, 16, 32, 16, 1, 32]⟩ : Shape).ShapeCasts ⟨4, ![1, 512, 512, 32]⟩)
    (h w : Fin 512) (c : Fin 32) :
    shapeCast ⟨4, ![1, 512, 512, 32]⟩
        (broadcastInDim ⟨8, ![1, 1, 32, 16, 32, 16, 1, 32]⟩ ![0, 1, 2, 3, 4, 5, 6, 7] hb
          (shapeCast ⟨8, ![1, 1, 1, 16, 1, 16, 1, 32]⟩ W h1)) h3 (ix4 (0 : Fin 1) h w c)
      = W (ix4 (0 : Fin 1) (⟨h.val % 16, Nat.mod_lt _ (by decide)⟩ : Fin 16)
          (⟨w.val % 16, Nat.mod_lt _ (by decide)⟩ : Fin 16) c) := by
  have hh := h.isLt
  have hw := w.isLt
  have hc := c.isLt
  -- the merged index (0, h, w, c) sits at the stretched index (0, 0, h / 16, h mod 16, w / 16, w mod 16, 0, c)
  refine (shapeCast_apply _ h3 (ix4 (0 : Fin 1) h w c)
    (ix8 (0 : Fin 1) (0 : Fin 1) (⟨h.val / 16, by omega⟩ : Fin 32) (⟨h.val % 16, Nat.mod_lt _ (by decide)⟩ : Fin 16)
      (⟨w.val / 16, by omega⟩ : Fin 32) (⟨w.val % 16, Nat.mod_lt _ (by decide)⟩ : Fin 16) (0 : Fin 1) c) ?_).trans ?_
  · rw [Shape.rowMajor_val_eight, Shape.rowMajor_val_four]
    show ((((((0 * 1 + 0) * 32 + h.val / 16) * 16 + h.val % 16) * 32 + w.val / 16) * 16 + w.val % 16) * 1 + 0) * 32
        + c.val
      = ((0 * 512 + h.val) * 512 + w.val) * 32 + c.val
    omega
  -- the stretch forgets the two repetition coordinates
  refine (broadcastInDim_apply _ hb _ _
    (ix8 (0 : Fin 1) (0 : Fin 1) (0 : Fin 1) (⟨h.val % 16, Nat.mod_lt _ (by decide)⟩ : Fin 16) (0 : Fin 1)
      (⟨w.val % 16, Nat.mod_lt _ (by decide)⟩ : Fin 16) (0 : Fin 1) c) (fun a => match a with
    | ⟨0, _⟩ => by show 0 = if (1 : Nat) = 1 then 0 else 0; rw [if_pos rfl]
    | ⟨1, _⟩ => by show 0 = if (1 : Nat) = 1 then 0 else 0; rw [if_pos rfl]
    | ⟨2, _⟩ => by show 0 = if (1 : Nat) = 1 then 0 else h.val / 16; rw [if_pos rfl]
    | ⟨3, _⟩ => by show h.val % 16 = if (16 : Nat) = 1 then 0 else h.val % 16; rw [if_neg (by decide)]
    | ⟨4, _⟩ => by show 0 = if (1 : Nat) = 1 then 0 else w.val / 16; rw [if_pos rfl]
    | ⟨5, _⟩ => by show w.val % 16 = if (16 : Nat) = 1 then 0 else w.val % 16; rw [if_neg (by decide)]
    | ⟨6, _⟩ => by show 0 = if (1 : Nat) = 1 then 0 else 0; rw [if_pos rfl]
    | ⟨7, _⟩ => by show c.val = if (32 : Nat) = 1 then 0 else c.val; rw [if_neg (by decide)])).trans ?_
  -- the first reshape keeps row-major positions
  refine shapeCast_apply W h1 _ _ ?_
  rw [Shape.rowMajor_val_four, Shape.rowMajor_val_eight]
  show ((0 * 16 + h.val % 16) * 16 + w.val % 16) * 32 + c.val
    = ((((((0 * 1 + 0) * 1 + 0) * 16 + h.val % 16) * 1 + 0) * 16 + w.val % 16) * 1 + 0) * 32 + c.val
  omega

/-- A 1×16×16×1 tile repeated 1 × 32 × 32 × 1 times
    (`[1,16,16,1] → [1,1,1,16,1,16,1,1] → [1,1,32,16,32,16,1,1] → [1,512,512,1]`): element `(0, h, w, 0)` is the
    tile's element `(0, h mod 16, w mod 16, 0)`. -/
theorem tile_1_32_32_1_unit_apply (Bv : (⟨4, ![1, 16, 16, 1]⟩ : Shape).Idx → α)
    (h1 : (⟨4, ![1, 16, 16, 1]⟩ : Shape).ShapeCasts ⟨8, ![1, 1, 1, 16, 1, 16, 1, 1]⟩)
    (hb : (⟨8, ![1, 1, 1, 16, 1, 16, 1, 1]⟩ : Shape).BroadcastsInDim ⟨8, ![1, 1, 32, 16, 32, 16, 1, 1]⟩
      (![0, 1, 2, 3, 4, 5, 6, 7] : Fin 8 → Fin (⟨8, ![1, 1, 32, 16, 32, 16, 1, 1]⟩ : Shape).rank))
    (h3 : (⟨8, ![1, 1, 32, 16, 32, 16, 1, 1]⟩ : Shape).ShapeCasts ⟨4, ![1, 512, 512, 1]⟩)
    (h w : Fin 512) :
    shapeCast ⟨4, ![1, 512, 512, 1]⟩
        (broadcastInDim ⟨8, ![1, 1, 32, 16, 32, 16, 1, 1]⟩ ![0, 1, 2, 3, 4, 5, 6, 7] hb
          (shapeCast ⟨8, ![1, 1, 1, 16, 1, 16, 1, 1]⟩ Bv h1)) h3 (ix4 (0 : Fin 1) h w (0 : Fin 1))
      = Bv (ix4 (0 : Fin 1) (⟨h.val % 16, Nat.mod_lt _ (by decide)⟩ : Fin 16)
          (⟨w.val % 16, Nat.mod_lt _ (by decide)⟩ : Fin 16) (0 : Fin 1)) := by
  have hh := h.isLt
  have hw := w.isLt
  refine (shapeCast_apply _ h3 (ix4 (0 : Fin 1) h w (0 : Fin 1))
    (ix8 (0 : Fin 1) (0 : Fin 1) (⟨h.val / 16, by omega⟩ : Fin 32) (⟨h.val % 16, Nat.mod_lt _ (by decide)⟩ : Fin 16)
      (⟨w.val / 16, by omega⟩ : Fin 32) (⟨w.val % 16, Nat.mod_lt _ (by decide)⟩ : Fin 16) (0 : Fin 1) (0 : Fin 1))
    ?_).trans ?_
  · rw [Shape.rowMajor_val_eight, Shape.rowMajor_val_four]
    show ((((((0 * 1 + 0) * 32 + h.val / 16) * 16 + h.val % 16) * 32 + w.val / 16) * 16 + w.val % 16) * 1 + 0) * 1
        + 0
      = ((0 * 512 + h.val) * 512 + w.val) * 1 + 0
    omega
  refine (broadcastInDim_apply _ hb _ _
    (ix8 (0 : Fin 1) (0 : Fin 1) (0 : Fin 1) (⟨h.val % 16, Nat.mod_lt _ (by decide)⟩ : Fin 16) (0 : Fin 1)
      (⟨w.val % 16, Nat.mod_lt _ (by decide)⟩ : Fin 16) (0 : Fin 1) (0 : Fin 1)) (fun a => match a with
    | ⟨0, _⟩ => by show 0 = if (1 : Nat) = 1 then 0 else 0; rw [if_pos rfl]
    | ⟨1, _⟩ => by show 0 = if (1 : Nat) = 1 then 0 else 0; rw [if_pos rfl]
    | ⟨2, _⟩ => by show 0 = if (1 : Nat) = 1 then 0 else h.val / 16; rw [if_pos rfl]
    | ⟨3, _⟩ => by show h.val % 16 = if (16 : Nat) = 1 then 0 else h.val % 16; rw [if_neg (by decide)]
    | ⟨4, _⟩ => by show 0 = if (1 : Nat) = 1 then 0 else w.val / 16; rw [if_pos rfl]
    | ⟨5, _⟩ => by show w.val % 16 = if (16 : Nat) = 1 then 0 else w.val % 16; rw [if_neg (by decide)]
    | ⟨6, _⟩ => by show 0 = if (1 : Nat) = 1 then 0 else 0; rw [if_pos rfl]
    | ⟨7, _⟩ => by show 0 = if (1 : Nat) = 1 then 0 else 0; rw [if_pos rfl])).trans ?_
  refine shapeCast_apply Bv h1 _ _ ?_
  rw [Shape.rowMajor_val_four, Shape.rowMajor_val_eight]
  show ((0 * 16 + h.val % 16) * 16 + w.val % 16) * 1 + 0
    = ((((((0 * 1 + 0) * 1 + 0) * 16 + h.val % 16) * 1 + 0) * 16 + w.val % 16) * 1 + 0) * 1 + 0
  omega

end Cert.Tile
-- ==== Proof.LibScatterSet.lean ====
import Idealize.ShloMosaic.PureOps.ShapeOps

/-!
# Reading a replacing scatter at an index

`Host.scatter d f x idx upd` is a left fold over the update indices in row-major order: the step for
update index `j` replaces the element at `d.resultIdx? j idx` (when that is inside the operand) by
`f` of the old element and `upd j`. When the body returns the update (`f = fun _ b => b`: a
`.at[…].set(…)`) the result at `i` is the operand's element when no update index lands on `i`, and
the update's element when the update indices landing on `i` all carry the same value — in
particular when the map from update indices to result indices is injective.
-/

namespace Idealize.ShloMosaic

section FoldReplace
variable {ι κ α : Type} [DecidableEq ι]

open Classical in
/-- A left fold of replacing steps, read at `i`. Step `n` replaces the element at `i0` by
    `val n` when `land n = some i0` and changes nothing when `land n = none`. If every `n` of the
    list that lands on `i` carries the value `v`, the fold's result at `i` is `v` when some `n` of
    the list lands on `i`, and the start's element otherwise. -/
theorem foldl_replace_apply (land : κ → Option ι) (val : κ → α) (step : (ι → α) → κ → ι → α)
    (hsome : ∀ r n i0, land n = some i0 → step r n = fun i' => if i' = i0 then val n else r i')
    (hnone : ∀ r n, land n = none → step r n = r)
    (i : ι) (v : α) (l : List κ) (hv : ∀ n ∈ l, land n = some i → val n = v) (x : ι → α) :
    l.foldl step x i = if ∃ n ∈ l, land n = some i then v else x i := by
  induction l generalizing x with
  | nil => simp
  | cons n l ih =>
    rw [List.foldl_cons, ih (fun m hm => hv m (List.mem_cons_of_mem _ hm))]
    cases hn : land n with
    | none =>
      rw [hnone x n hn]
      have hiff : (∃ m ∈ n :: l, land m = some i) ↔ ∃ m ∈ l, land m = some i := by
        constructor
        · rintro ⟨m, hm, h⟩
          rcases List.mem_cons.1 hm with rfl | hm
          · rw [hn] at h; exact absurd h (by simp)
          · exact ⟨m, hm, h⟩
        · rintro ⟨m, hm, h⟩; exact ⟨m, List.mem_cons_of_mem _ hm, h⟩
      by_cases hl : ∃ m ∈ l, land m = some i
      · rw [if_pos hl, if_pos (hiff.2 hl)]
      · rw [if_neg hl, if_neg (fun h => hl (hiff.1 h))]
    | some i0 =>
      rw [hsome x n i0 hn]
      by_cases hl : ∃ m ∈ l, land m = some i
      · have hl' : ∃ m ∈ n :: l, land m = some i := by
          obtain ⟨m, hm, h⟩ := hl; exact ⟨m, List.mem_cons_of_mem _ hm, h⟩
        rw [if_pos hl, if_pos hl']
      · rw [if_neg hl]
        by_cases hi : i = i0
        · subst hi
          have hl' : ∃ m ∈ n :: l, land m = some i := ⟨n, List.mem_cons_self, hn⟩
          rw [if_pos hl']
          show (if i = i then val n else x i) = v
          rw [if_pos rfl]
          exact hv n List.mem_cons_self hn
        · have hl' : ¬ ∃ m ∈ n :: l, land m = some i := by
            rintro ⟨m, hm, h⟩
            rcases List.mem_cons.1 hm with rfl | hm
            · rw [hn] at h; exact hi (Option.some.inj h).symm
            · exact hl ⟨m, hm, h⟩
          rw [if_neg hl']
          show (if i = i0 then val n else x i) = x i
          rw [if_neg hi]

end FoldReplace

section ScatterSet
variable {s si u : Shape} {α : Type} {w : Nat}

/-- A replacing scatter read at `i`, when the update indices landing on `i` all carry the value
    `v`: the result is `v`. -/
theorem Host.scatter_set_eq_of_lands (d : ScatterDims s si u) (x : s.Idx → α) (idx : IVec si w) (upd : u.Idx → α)
    (i : s.Idx) (v : α) (hv : ∀ j, d.resultIdx? j idx = some i → upd j = v) (hex : ∃ j, d.resultIdx? j idx = some i) :
    Host.scatter d (fun _ b => b) x idx upd i = v := by
  unfold Host.scatter
  rw [foldl_replace_apply (fun n => d.resultIdx? (u.rowMajor.symm n) idx) (fun n => upd (u.rowMajor.symm n)) _
    (fun r n i0 h => by simp only [h]) (fun r n h => by simp only [h]) i v _ (fun n _ h => hv _ h) x]
  obtain ⟨j, hj⟩ := hex
  exact if_pos ⟨u.rowMajor j, List.mem_finRange _, by rw [Equiv.symm_apply_apply]; exact hj⟩

/-- A replacing scatter read at an index no update index lands on: the operand's element. -/
theorem Host.scatter_set_eq_of_not_lands (d : ScatterDims s si u) (x : s.Idx → α) (idx : IVec si w) (upd : u.Idx → α)
    (i : s.Idx) (hno : ∀ j, d.resultIdx? j idx ≠ some i) :
    Host.scatter d (fun _ b => b) x idx upd i = x i := by
  unfold Host.scatter
  rw [foldl_replace_apply (fun n => d.resultIdx? (u.rowMajor.symm n) idx) (fun n => upd (u.rowMajor.symm n)) _
    (fun r n i0 h => by simp only [h]) (fun r n h => by simp only [h]) i (x i) _ (fun n _ h => absurd h (hno _)) x]
  exact if_neg (fun ⟨n, _, h⟩ => hno _ h)

/-- A replacing scatter whose update indices land, all inside the operand, at pairwise distinct
    result indices `e j`, read at `e j`: the update's element at `j`. -/
theorem Host.scatter_set_hit (d : ScatterDims s si u) (x : s.Idx → α) (idx : IVec si w) (upd : u.Idx → α)
    (e : u.Idx → s.Idx) (he : ∀ j, d.resultIdx? j idx = some (e j)) (hinj : Function.Injective e) (j : u.Idx) :
    Host.scatter d (fun _ b => b) x idx upd (e j) = upd j :=
  Host.scatter_set_eq_of_lands d x idx upd (e j) (upd j)
    (fun j' h => by rw [he j'] at h; rw [hinj (Option.some.inj h)]) ⟨j, he j⟩

/-- A replacing scatter whose update indices land at the result indices `e j`, read at an index
    that is none of them: the operand's element. -/
theorem Host.scatter_set_miss (d : ScatterDims s si u) (x : s.Idx → α) (idx : IVec si w) (upd : u.Idx → α)
    (e : u.Idx → s.Idx) (he : ∀ j, d.resultIdx? j idx = some (e j)) (i : s.Idx) (hi : ∀ j, e j ≠ i) :
    Host.scatter d (fun _ b => b) x idx upd i = x i :=
  Host.scatter_set_eq_of_not_lands d x idx upd i
    (fun j h => by rw [he j] at h; exact hi j (Option.some.inj h))

/-- The window start on every operand axis is `0` when every component of the scatter indices is
    the zero word (read signed: `0`; an axis the map does not name starts at `0` anyway). -/
theorem ScatterDims.start_eq_zero_of_zero (d : ScatterDims s si u) (j : u.Idx) (idx : IVec si w)
    (hidx : ∀ k, idx k = 0#w) (a : Fin s.rank) : d.start j idx a = 0 := by
  unfold ScatterDims.start
  split
  · rw [hidx]; exact BitVec.toInt_zero
  · rfl

/-- The result index of update index `j` is `i` when on every operand axis the start plus the
    window coordinate is `i`'s coordinate (which is inside the operand, being a coordinate). -/
theorem ScatterDims.resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hin : ∀ a, 0 ≤ d.start j idx a + (d.window j a : Int) ∧ d.start j idx a + (d.window j a : Int) < (s.size a : Int) := by
    intro a; rw [h a]; exact ⟨Int.natCast_nonneg _, by exact_mod_cast (i a).isLt⟩
  rw [dif_pos hin]
  refine congrArg some (funext fun a => Fin.ext ?_)
  show (d.start j idx a + (d.window j a : Int)).toNat = (i a).val
  rw [h a]; exact Int.toNat_natCast _

end ScatterSet

end Idealize.ShloMosaic
-- ==== Proof.PatchScatter.lean ====
import proofs.«159069_j8443905704514_2_alg».proof.Proof.LibScatterSet
import Idealize.ShloMosaic.Lib.ValueIdx
import Idealize.ShloMosaic.Lib.Pipeline.Value

/-!
# The patch scatter of this kernel, read at an index

Both programs write a 16×16 patch (all 32 channels) into the top-left corner of a larger array with a
replacing scatter at the single start index (0, 0): rank 3 into 64×512×32, rank 4 into 1×512×512×32.
Read at an index, the result is the update inside the corner and the operand outside it. The start
index is a concatenation of two broadcast zero constants, which is the zero word at both positions.
-/

namespace Cert.PatchScatter

open Idealize.ShloMosaic Idealize.ShloMosaic.ValueIdx

section Rank3
variable {α : Type}

/-- An index of the 16×16×32 update array read as an index of the 64×512×32 operand: the same
    coordinates. -/
abbrev emb3 (j : (⟨3, ![16, 16, 32]⟩ : Shape).Idx) : (⟨3, ![64, 512, 32]⟩ : Shape).Idx :=
  ix3 ⟨(j 0).val, Nat.lt_of_lt_of_le (j 0).isLt (by decide : 16 ≤ 64)⟩
    ⟨(j 1).val, Nat.lt_of_lt_of_le (j 1).isLt (by decide : 16 ≤ 512)⟩ ⟨(j 2).val, (j 2).isLt⟩

/-- Distinct update indices have distinct coordinates in the operand. -/
theorem emb3_injective : Function.Injective emb3 := by
  intro j j' hjj
  funext a
  match a with
  | ⟨0, _⟩ => exact Fin.ext (show (j 0).val = (j' 0).val from congrArg (fun i => (i 0).val) hjj)
  | ⟨1, _⟩ => exact Fin.ext (show (j 1).val = (j' 1).val from congrArg (fun i => (i 1).val) hjj)
  | ⟨2, _⟩ => exact Fin.ext (show (j 2).val = (j' 2).val from congrArg (fun i => (i 2).val) hjj)

/-- The rank-3 replacing scatter of a 16×16×32 update into a 64×512×32 operand at the start index
    (0, 0), read at (h, w, c): the update's element when h and w are both below 16, the operand's
    element otherwise. The window starts at 0 on every axis, so update index `j` lands at the operand
    index with `j`'s coordinates; these are pairwise distinct and cover exactly h, w < 16. -/
theorem scatter3_apply (hwf : ScatterDims.WF ⟨3, ![64, 512, 32]⟩ ⟨1, ![2]⟩ ⟨3, ![16, 16, 32]⟩ [0, 1, 2] [] [0, 1] 0)
    (X : (⟨3, ![64, 512, 32]⟩ : Shape).Idx → α) (U : (⟨3, ![16, 16, 32]⟩ : Shape).Idx → α) (idx : IVec ⟨1, ![2]⟩ 32)
    (hidx : ∀ k, idx k = 0#32) (h : Fin 64) (w : Fin 512) (c : Fin 32) :
    Host.scatter (⟨[0, 1, 2], [], [0, 1], 0, hwf⟩ : ScatterDims ⟨3, ![64, 512, 32]⟩ ⟨1, ![2]⟩ ⟨3, ![16, 16, 32]⟩)
        (fun _ b => b) X idx U (ix3 h w c)
      = if hh : h.val < 16 ∧ w.val < 16 then U (ix3 ⟨h.val, hh.1⟩ ⟨w.val, hh.2⟩ c) else X (ix3 h w c) := by
  have he : ∀ j, (⟨[0, 1, 2], [], [0, 1], 0, hwf⟩ : ScatterDims ⟨3, ![64, 512, 32]⟩ ⟨1, ![2]⟩ ⟨3, ![16, 16, 32]⟩).resultIdx? j idx
      = some (emb3 j) := fun j =>
    ScatterDims.resultIdx?_eq_some _ j idx (emb3 j) (fun a => by
      rw [ScatterDims.start_eq_zero_of_zero _ j idx hidx a, Int.zero_add]
      match a with
      | ⟨0, _⟩ => rfl
      | ⟨1, _⟩ => rfl
      | ⟨2, _⟩ => rfl)
  by_cases hh : h.val < 16 ∧ w.val < 16
  · rw [dif_pos hh]
    have hix : ix3 h w c = emb3 (ix3 (⟨h.val, hh.1⟩ : Fin 16) (⟨w.val, hh.2⟩ : Fin 16) c) := by
      funext a
      match a with
      | ⟨0, _⟩ => rfl
      | ⟨1, _⟩ => rfl
      | ⟨2, _⟩ => rfl
    rw [hix]
    exact Host.scatter_set_hit _ X idx U emb3 he emb3_injective _
  · rw [dif_neg hh]
    refine Host.scatter_set_miss _ X idx U emb3 he _ (fun j hj => hh ⟨?_, ?_⟩)
    · have h0 : (j 0).val = h.val := congrArg Fin.val (congrFun hj 0)
      rw [← h0]; exact (j 0).isLt
    · have h1 : (j 1).val = w.val := congrArg Fin.val (congrFun hj 1)
      rw [← h1]; exact (j 1).isLt

end Rank3

section Rank4
variable {α : Type}

/-- An index of the 1×16×16×32 update array read as an index of the 1×512×512×32 operand: the
    same coordinates. -/
abbrev emb4 (j : (⟨4, ![1, 16, 16, 32]⟩ : Shape).Idx) : (⟨4, ![1, 512, 512, 32]⟩ : Shape).Idx :=
  ix4 ⟨(j 0).val, (j 0).isLt⟩ ⟨(j 1).val, Nat.lt_of_lt_of_le (j 1).isLt (by decide : 16 ≤ 512)⟩
    ⟨(j 2).val, Nat.lt_of_lt_of_le (j 2).isLt (by decide : 16 ≤ 512)⟩ ⟨(j 3).val, (j 3).isLt⟩

/-- Distinct update indices have distinct coordinates in the operand. -/
theorem emb4_injective : Function.Injective emb4 := by
  intro j j' hjj
  funext a
  match a with
  | ⟨0, _⟩ => exact Fin.ext (show (j 0).val = (j' 0).val from congrArg (fun i => (i 0).val) hjj)
  | ⟨1, _⟩ => exact Fin.ext (show (j 1).val = (j' 1).val from congrArg (fun i => (i 1).val) hjj)
  | ⟨2, _⟩ => exact Fin.ext (show (j 2).val = (j' 2).val from congrArg (fun i => (i 2).val) hjj)
  | ⟨3, _⟩ => exact Fin.ext (show (j 3).val = (j' 3).val from congrArg (fun i => (i 3).val) hjj)

/-- The rank-4 replacing scatter of a 1×16×16×32 update into a 1×512×512×32 operand at the start
    index (0, 0) on axes 1 and 2, read at (0, h, w, c): the update's element when h and w are both
    below 16, the operand's element otherwise. -/
theorem scatter4_apply
    (hwf : ScatterDims.WF ⟨4, ![1, 512, 512, 32]⟩ ⟨1, ![2]⟩ ⟨4, ![1, 16, 16, 32]⟩ [0, 1, 2, 3] [] [1, 2] 0)
    (X : (⟨4, ![1, 512, 512, 32]⟩ : Shape).Idx → α) (U : (⟨4, ![1, 16, 16, 32]⟩ : Shape).Idx → α) (idx : IVec ⟨1, ![2]⟩ 32)
    (hidx : ∀ k, idx k = 0#32) (h w : Fin 512) (c : Fin 32) :
    Host.scatter (⟨[0, 1, 2, 3], [], [1, 2], 0, hwf⟩ : ScatterDims ⟨4, ![1, 512, 512, 32]⟩ ⟨1, ![2]⟩ ⟨4, ![1, 16, 16, 32]⟩)
        (fun _ b => b) X idx U (ix4 (0 : Fin 1) h w c)
      = if hh : h.val < 16 ∧ w.val < 16 then U (ix4 (0 : Fin 1) ⟨h.val, hh.1⟩ ⟨w.val, hh.2⟩ c)
        else X (ix4 (0 : Fin 1) h w c) := by
  have he : ∀ j, (⟨[0, 1, 2, 3], [], [1, 2], 0, hwf⟩ :
      ScatterDims ⟨4, ![1, 512, 512, 32]⟩ ⟨1, ![2]⟩ ⟨4, ![1, 16, 16, 32]⟩).resultIdx? j idx = some (emb4 j) := fun j =>
    ScatterDims.resultIdx?_eq_some _ j idx (emb4 j) (fun a => by
      rw [ScatterDims.start_eq_zero_of_zero _ j idx hidx a, Int.zero_add]
      match a with
      | ⟨0, _⟩ => rfl
      | ⟨1, _⟩ => rfl
      | ⟨2, _⟩ => rfl
      | ⟨3, _⟩ => rfl)
  by_cases hh : h.val < 16 ∧ w.val < 16
  · rw [dif_pos hh]
    have hix : ix4 (0 : Fin 1) h w c = emb4 (ix4 (0 : Fin 1) (⟨h.val, hh.1⟩ : Fin 16) (⟨w.val, hh.2⟩ : Fin 16) c) := by
      funext a
      match a with
      | ⟨0, _⟩ => rfl
      | ⟨1, _⟩ => rfl
      | ⟨2, _⟩ => rfl
      | ⟨3, _⟩ => rfl
    rw [hix]
    exact Host.scatter_set_hit _ X idx U emb4 he emb4_injective _
  · rw [dif_neg hh]
    refine Host.scatter_set_miss _ X idx U emb4 he _ (fun j hj => hh ⟨?_, ?_⟩)
    · have h1 : (j 1).val = h.val := congrArg (fun i => (i 1).val) hj
      rw [← h1]; exact (j 1).isLt
    · have h2 : (j 2).val = w.val := congrArg (fun i => (i 2).val) hj
      rw [← h2]; exact (j 2).isLt

end Rank4

/-- The scatter's index vector, two copies of the scalar constant zero broadcast to one element and
    concatenated, is the zero word at both positions. -/
theorem index_vector_zero (hb : (⟨0, ![]⟩ : Shape).BroadcastsInDim ⟨1, ![1]⟩ ![])
    (hc : Shape.Concatenates [⟨1, ![1]⟩, ⟨1, ![1]⟩] ⟨1, ![2]⟩ 0) (k : (⟨1, ![2]⟩ : Shape).Idx) :
    concatenate ⟨1, ![2]⟩ 0
      [⟨⟨1, ![1]⟩, broadcastInDim ⟨1, ![1]⟩ ![] hb (constantI ⟨0, ![]⟩ 32 0#32)⟩,
       ⟨⟨1, ![1]⟩, broadcastInDim ⟨1, ![1]⟩ ![] hb (constantI ⟨0, ![]⟩ 32 0#32)⟩] hc k = 0#32 := by
  obtain ⟨k0, rfl⟩ : ∃ k0 : Fin 2, k = ix1 k0 := ⟨k 0, eq_ix1 k⟩
  match k0 with
  | ⟨0, _⟩ =>
    exact (concatenate_pair_apply_left (t := ⟨1, ![2]⟩) (s₁ := ⟨1, ![1]⟩) (s₂ := ⟨1, ![1]⟩) 0 _ _ hc _ rfl (ix1 (0 : Fin 1))
      (fun b => by match b with | ⟨0, _⟩ => rfl)).trans rfl
  | ⟨1, _⟩ =>
    exact (concatenate_pair_apply_right (t := ⟨1, ![2]⟩) (s₁ := ⟨1, ![1]⟩) (s₂ := ⟨1, ![1]⟩) 0 _ _ hc _ rfl rfl (ix1 (0 : Fin 1))
      (fun b hb' => absurd (Subsingleton.elim _ _) hb') rfl).trans rfl

end Cert.PatchScatter
-- ==== Proof.KernelIsSpec.lean ====
import proofs.«159069_j8443905704514_2_alg».proof.Proof.KernelHost
import proofs.«159069_j8443905704514_2_alg».proof.Proof.KernelSpec
import proofs.«159069_j8443905704514_2_alg».proof.Proof.Spec
import proofs.«159069_j8443905704514_2_alg».proof.Proof.Tile
import proofs.«159069_j8443905704514_2_alg».proof.Proof.PatchScatter
import Idealize.ShloMosaic.Lib.ValueLayout
import Idealize.ShloMosaic.Lib.Pipeline.Value

/-!
# The arrays the region computes are the linear filter

The region's two results are stated over the three arrays it finds: the input with pixels and channels merged into
16384 lanes, the two-variant filter stack and the bias slab. Read at an index, each of these is an argument at an
index: lane `p · 32 + k` of the merged input is channel `k` of pixel `p`; the plain slab repeats the weight with
period 16 in both directions; the patched slab carries the rectified weight on its top-left 16 × 16 patch; image
row `h` meets variant `min (h / 64) 1` at slab row `h mod 64`, which is the patched slab exactly for the rows below
64, and there the patch condition on the slab row is the one on `h`; and `(h mod 64) mod 16 = h mod 16`. So the
stack read where row `h` reads it is the filter of the specification, and the two result arrays, their lanes split
again into pixels and channels, are `weighted` and `filtered`.
-/

noncomputable section

open scoped BigOperators

namespace Cert.KernelIdeal.Algebra

open Cert.KernelIdeal Cert.KernelIdeal.Gen Cert.KernelIdeal.Block Cert.KernelIdeal.Arrays
open Idealize.ShloMosaic Idealize.ShloMosaic.ValueIdx

/-- Two rank-4 indices with equal coordinates are equal. -/
theorem ix4_congr {n0 n1 n2 n3 : Nat} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  obtain rfl := Fin.ext ha
  obtain rfl := Fin.ext hb
  obtain rfl := Fin.ext hc
  obtain rfl := Fin.ext hd
  rfl

/-- Lane `p · 32 + k` of the merged input is channel `k` of pixel `p`. -/
theorem flatOf_apply (X : S8x512x512x32.Idx → EReal) (n : Fin 8) (h p : Fin 512) (k : Fin 32) :
    Host.flatOf X (ix3 n h (lane p k)) = X (ix4 n h p k) := by
  unfold Host.flatOf
  refine shapeCast_apply X _ _ _ ?_
  rw [Shape.rowMajor_val_four, Shape.rowMajor_val_three]
  show ((n.val * 512 + h.val) * 512 + p.val) * 32 + k.val = (n.val * 512 + h.val) * 16384 + (p.val * 32 + k.val)
  omega

/-- The weight without its leading unit axis, at an index. -/
theorem weight3_apply (W : S1x16x16x32.Idx → EReal) (a b : Fin 16) (c : Fin 32) :
    Host.weight3 W (ix3 a b c) = W (ix4 (0 : Fin 1) a b c) := by
  unfold Host.weight3
  exact shapeCast_1abc_abc_apply W _ a b c

/-- The plain slab repeats the weight with period 16 along rows and pixels. -/
theorem plainSlab_apply (W : S1x16x16x32.Idx → EReal) (r : Fin 64) (p : Fin 512) (k : Fin 32) :
    Host.plainSlab W (ix3 r p k)
      = W (ix4 (0 : Fin 1) (⟨r.val % 16, Nat.mod_lt _ (by decide)⟩ : Fin 16) (⟨p.val % 16, Nat.mod_lt _ (by decide)⟩ : Fin 16) k) := by
  unfold Host.plainSlab
  exact (Cert.Tile.tile_4_32_1_apply (Host.weight3 W) _ _ _ r p k).trans (weight3_apply W _ _ k)

/-- The rectified weight at an index: the maximum of the weight there and zero. -/
theorem rectified_apply (W : S1x16x16x32.Idx → EReal) (a b : Fin 16) (c : Fin 32) :
    Host.rectified W (ix3 a b c) = max (W (ix4 (0 : Fin 1) a b c)) (Ideal.ofBits .f32 0x00000000#32) := by
  unfold Host.rectified
  show max (Host.weight3 W (ix3 a b c)) (Ideal.ofBits .f32 0x00000000#32) = _
  rw [weight3_apply]

/-- The patched slab: the rectified weight on the top-left 16 × 16 patch, the plain slab elsewhere. -/
theorem patchedSlab_apply (W : S1x16x16x32.Idx → EReal) (r : Fin 64) (p : Fin 512) (k : Fin 32) :
    Host.patchedSlab W (ix3 r p k)
      = if hh : r.val < 16 ∧ p.val < 16 then
          max (W (ix4 (0 : Fin 1) (⟨r.val, hh.1⟩ : Fin 16) (⟨p.val, hh.2⟩ : Fin 16) k)) (Ideal.ofBits .f32 0x00000000#32)
        else W (ix4 (0 : Fin 1) (⟨r.val % 16, Nat.mod_lt _ (by decide)⟩ : Fin 16) (⟨p.val % 16, Nat.mod_lt _ (by decide)⟩ : Fin 16) k) := by
  unfold Host.patchedSlab
  refine (Cert.PatchScatter.scatter3_apply _ (Host.plainSlab W) (Host.rectified W) Host.origin
    (fun j => Cert.PatchScatter.index_vector_zero _ _ j) r p k).trans ?_
  by_cases hh : r.val < 16 ∧ p.val < 16
  · rw [dif_pos hh, dif_pos hh, rectified_apply]
  · rw [dif_neg hh, dif_neg hh, plainSlab_apply]

/-- Variant 0 of the stack is the patched slab, its pixels and channels merged into lanes. -/
theorem stackOf_zero (W : S1x16x16x32.Idx → EReal) (r : Fin 64) (p : Fin 512) (k : Fin 32) :
    Host.stackOf W (ix3 (0 : Fin 2) r (lane p k)) = Host.patchedSlab W (ix3 r p k) := by
  unfold Host.stackOf
  refine (shapeCast_apply _ shapeCasts_S2x64x512x32_S2x64x16384 (ix3 (0 : Fin 2) r (lane p k)) (ix4 (0 : Fin 2) r p k) ?_).trans ?_
  · rw [Shape.rowMajor_val_four, Shape.rowMajor_val_three]
    show ((0 * 64 + r.val) * 512 + p.val) * 32 + k.val = (0 * 64 + r.val) * 16384 + (p.val * 32 + k.val)
    omega
  refine (concatenate_pair_apply_left (t := S2x64x512x32) (s₁ := S1x64x512x32) (s₂ := S1x64x512x32) 0 _ _
    concatenates_S1x64x512x32_S1x64x512x32_S2x64x512x32_d0 (ix4 (0 : Fin 2) r p k) rfl (ix4 (0 : Fin 1) r p k)
    (fun b => match b with
      | ⟨0, _⟩ => rfl
      | ⟨1, _⟩ => rfl
      | ⟨2, _⟩ => rfl
      | ⟨3, _⟩ => rfl)).trans ?_
  refine broadcastInDim_apply _ bcast_S64x512x32_S1x64x512x32_1_2_3 _ _ (ix3 r p k) (fun a => match a with
    | ⟨0, _⟩ => by show r.val = if (64 : Nat) = 1 then 0 else r.val; rw [if_neg (by decide)]
    | ⟨1, _⟩ => by show p.val = if (512 : Nat) = 1 then 0 else p.val; rw [if_neg (by decide)]
    | ⟨2, _⟩ => by show k.val = if (32 : Nat) = 1 then 0 else k.val; rw [if_neg (by decide)])

/-- Variant 1 of the stack is the plain slab, its pixels and channels merged into lanes. -/
theorem stackOf_one (W : S1x16x16x32.Idx → EReal) (r : Fin 64) (p : Fin 512) (k : Fin 32) :
    Host.stackOf W (ix3 (1 : Fin 2) r (lane p k)) = Host.plainSlab W (ix3 r p k) := by
  unfold Host.stackOf
  refine (shapeCast_apply _ shapeCasts_S2x64x512x32_S2x64x16384 (ix3 (1 : Fin 2) r (lane p k)) (ix4 (1 : Fin 2) r p k) ?_).trans ?_
  · rw [Shape.rowMajor_val_four, Shape.rowMajor_val_three]
    show ((1 * 64 + r.val) * 512 + p.val) * 32 + k.val = (1 * 64 + r.val) * 16384 + (p.val * 32 + k.val)
    omega
  refine (concatenate_pair_apply_right (t := S2x64x512x32) (s₁ := S1x64x512x32) (s₂ := S1x64x512x32) 0 _ _
    concatenates_S1x64x512x32_S1x64x512x32_S2x64x512x32_d0 (ix4 (1 : Fin 2) r p k) rfl rfl (ix4 (0 : Fin 1) r p k)
    (fun b hb => match b, hb with
      | ⟨0, _⟩, hb => absurd rfl hb
      | ⟨1, _⟩, _ => rfl
      | ⟨2, _⟩, _ => rfl
      | ⟨3, _⟩, _ => rfl) rfl).trans ?_
  refine broadcastInDim_apply _ bcast_S64x512x32_S1x64x512x32_1_2_3 _ _ (ix3 r p k) (fun a => match a with
    | ⟨0, _⟩ => by show r.val = if (64 : Nat) = 1 then 0 else r.val; rw [if_neg (by decide)]
    | ⟨1, _⟩ => by show p.val = if (512 : Nat) = 1 then 0 else p.val; rw [if_neg (by decide)]
    | ⟨2, _⟩ => by show k.val = if (32 : Nat) = 1 then 0 else k.val; rw [if_neg (by decide)])

/-- The stack read where image row `h` reads it is the filter of the specification. -/
theorem stackOf_filt (W : S1x16x16x32.Idx → EReal) (h p : Fin 512) (k : Fin 32) :
    Host.stackOf W (ix3 (variant h) (slabRow h) (lane p k)) = Cert.LinFilter.filt W h p k := by
  have hlt := h.isLt
  unfold Cert.LinFilter.filt
  by_cases h64 : h.val < 64
  · have hv : variant h = (0 : Fin 2) := Fin.ext (by show min (h.val / 64) 1 = 0; omega)
    have hs : (slabRow h).val = h.val := by show h.val % 64 = h.val; omega
    rw [hv, stackOf_zero, patchedSlab_apply]
    by_cases hh : h.val < 16 ∧ p.val < 16
    · have hh' : (slabRow h).val < 16 ∧ p.val < 16 := by rw [hs]; exact hh
      rw [dif_pos hh, dif_pos hh']
      exact congrArg (fun i => max (W i) (Ideal.ofBits .f32 0x00000000#32)) (ix4_congr rfl hs rfl rfl)
    · have hh' : ¬((slabRow h).val < 16 ∧ p.val < 16) := by rw [hs]; exact hh
      rw [dif_neg hh, dif_neg hh']
      exact congrArg W (ix4_congr rfl (by show (slabRow h).val % 16 = h.val % 16; rw [hs]) rfl rfl)
  · have hv : variant h = (1 : Fin 2) := Fin.ext (by show min (h.val / 64) 1 = 1; omega)
    have hh : ¬(h.val < 16 ∧ p.val < 16) := fun hh => h64 (by omega)
    rw [hv, stackOf_one, plainSlab_apply, dif_neg hh]
    exact congrArg W (ix4_congr rfl (by show h.val % 64 % 16 = h.val % 16; omega) rfl rfl)

/-- The bias slab read where image row `h` reads it is the bias tile at the period-reduced pixel. -/
theorem biasOf_apply (Bv : S1x16x16x1.Idx → EReal) (h p : Fin 512) :
    Host.biasOf Bv (ix2 (slabRow h) p) = Bv (ix4 (0 : Fin 1) (Cert.LinFilter.per h) (Cert.LinFilter.per p) (0 : Fin 1)) := by
  unfold Host.biasOf
  refine (Cert.Tile.tile_4_32_apply (shapeCast S16x16 Bv shapeCasts_S1x16x16x1_S16x16) _ _ _ (slabRow h) p).trans ?_
  refine (shapeCast_apply Bv shapeCasts_S1x16x16x1_S16x16 _
    (ix4 (0 : Fin 1) (⟨(slabRow h).val % 16, Nat.mod_lt _ (by decide)⟩ : Fin 16) (⟨p.val % 16, Nat.mod_lt _ (by decide)⟩ : Fin 16) (0 : Fin 1)) ?_).trans ?_
  · rw [Shape.rowMajor_val_four, Shape.rowMajor_val_two]
    show ((0 * 16 + (slabRow h).val % 16) * 16 + p.val % 16) * 1 + 0 = (slabRow h).val % 16 * 16 + p.val % 16
    omega
  exact congrArg Bv (ix4_congr rfl (by show h.val % 64 % 16 = h.val % 16; omega) rfl rfl)

/-- `weighted` at one index. -/
theorem weighted_at (X : S8x512x512x32.Idx → EReal) (W : S1x16x16x32.Idx → EReal)
    (h20 : S8x512x16384.ShapeCasts S8x512x512x32) (n : Fin 8) (h p : Fin 512) (c : Fin 32) :
    shapeCast S8x512x512x32 (Arrays.weightedArr (Host.stackOf W) (Host.flatOf X)) h20 (ix4 n h p c)
      = Cert.LinFilter.weighted X W (ix4 n h p c) := by
  refine (shapeCast_apply _ h20 (ix4 n h p c) (ix3 n h (lane p c)) ?_).trans ?_
  · rw [Shape.rowMajor_val_three, Shape.rowMajor_val_four]
    show (n.val * 512 + h.val) * 16384 + (p.val * 32 + c.val) = ((n.val * 512 + h.val) * 512 + p.val) * 32 + c.val
    omega
  rw [Arrays.weightedArr_apply, Cert.LinFilter.weighted_apply]
  unfold Arrays.weightedAt Cert.LinFilter.weightedAt
  rw [flatOf_apply, stackOf_filt]

/-- `filtered` at one index. -/
theorem filtered_at (X : S8x512x512x32.Idx → EReal) (W : S1x16x16x32.Idx → EReal) (Bv : S1x16x16x1.Idx → EReal)
    (h19 : S8x512x512.ShapeCasts S8x512x512x1) (n : Fin 8) (h p : Fin 512) (u : Fin 1) :
    shapeCast S8x512x512x1 (Arrays.filteredArr (Host.stackOf W) (Host.biasOf Bv) (Host.flatOf X)) h19 (ix4 n h p u)
      = Cert.LinFilter.filtered X W Bv (ix4 n h p u) := by
  have hu := u.isLt
  refine (shapeCast_apply _ h19 (ix4 n h p u) (ix3 n h p) ?_).trans ?_
  · rw [Shape.rowMajor_val_three, Shape.rowMajor_val_four]
    show (n.val * 512 + h.val) * 512 + p.val = ((n.val * 512 + h.val) * 512 + p.val) * 1 + u.val
    omega
  rw [Arrays.filteredArr_apply, Cert.LinFilter.filtered_apply]
  unfold Arrays.filteredAt Cert.LinFilter.filteredAt
  rw [biasOf_apply]
  refine congrArg (· + Bv (ix4 (0 : Fin 1) (Cert.LinFilter.per h) (Cert.LinFilter.per p) (0 : Fin 1))) ?_
  refine Finset.sum_congr rfl fun k _ => ?_
  rw [flatOf_apply, stackOf_filt]

/-- The `weighted` result, its lanes split into pixels and channels, is the specification's. -/
theorem weighted_eq (X : S8x512x512x32.Idx → EReal) (W : S1x16x16x32.Idx → EReal)
    (h20 : S8x512x16384.ShapeCasts S8x512x512x32) :
    shapeCast S8x512x512x32 (Arrays.weightedArr (Host.stackOf W) (Host.flatOf X)) h20 = Cert.LinFilter.weighted X W := by
  funext i
  obtain ⟨n, h, p, c, rfl⟩ : ∃ (n : Fin 8) (h p : Fin 512) (c : Fin 32), i = ix4 n h p c := ⟨i 0, i 1, i 2, i 3, eq_ix4 i⟩
  exact weighted_at X W h20 n h p c

/-- The `filtered` result, given its trailing unit axis, is the specification's. -/
theorem filtered_eq (X : S8x512x512x32.Idx → EReal) (W : S1x16x16x32.Idx → EReal) (Bv : S1x16x16x1.Idx → EReal)
    (h19 : S8x512x512.ShapeCasts S8x512x512x1) :
    shapeCast S8x512x512x1 (Arrays.filteredArr (Host.stackOf W) (Host.biasOf Bv) (Host.flatOf X)) h19
      = Cert.LinFilter.filtered X W Bv := by
  funext i
  obtain ⟨n, h, p, u, rfl⟩ : ∃ (n : Fin 8) (h p : Fin 512) (u : Fin 1), i = ix4 n h p u := ⟨i 0, i 1, i 2, i 3, eq_ix4 i⟩
  exact filtered_at X W Bv h19 n h p u

end Cert.KernelIdeal.Algebra

end
-- ==== Proof.RefIsSpec.lean ====
/-
  The reference program computes the specification's two arrays. Its filter image is a periodic tiling of the weight
  (period 16 along both pixel axes) with the rectified weight written over the top-left 16 × 16 patch by a replacing
  scatter at the start index (0, 0); `weighted` multiplies the input by that image, and `filtered` sums the products over
  the 32 channels (from the constant 0) and adds the bias tile repeated with the same period.
-/
import proofs.«159069_j8443905704514_2_alg».proof.Proof.Gen.ReferenceIdeal.Read
import proofs.«159069_j8443905704514_2_alg».proof.Proof.Spec
import proofs.«159069_j8443905704514_2_alg».proof.Proof.Tile
import proofs.«159069_j8443905704514_2_alg».proof.Proof.PatchScatter

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo
open Idealize.ShloMosaic.ValueIdx

/-- The tiled weight (before the patch is written) at pixel (h, w), channel c: the weight at the pixel reduced modulo
    16. -/
theorem tiled_weight_apply (W : (⟨S1x16x16x32, .f32⟩ : BufTy).Contents (Elt Ideal)) (h w : Fin 512) (c : Fin 32) :
    val_main_v2 (F := Ideal) W (ix4 (0 : Fin 1) h w c)
      = W (ix4 (0 : Fin 1) (Cert.LinFilter.per h) (Cert.LinFilter.per w) c) := by
  unfold val_main_v2 val_main_v1 val_main_v0
  exact Cert.Tile.tile_1_32_32_1_apply W _ _ _ h w c

/-- The tiled bias at pixel (h, w): the bias at the pixel reduced modulo 16. -/
theorem tiled_bias_apply (Bv : (⟨S1x16x16x1, .f32⟩ : BufTy).Contents (Elt Ideal)) (h w : Fin 512) :
    val_main_v10 (F := Ideal) Bv (ix4 (0 : Fin 1) h w (0 : Fin 1))
      = Bv (ix4 (0 : Fin 1) (Cert.LinFilter.per h) (Cert.LinFilter.per w) (0 : Fin 1)) := by
  unfold val_main_v10 val_main_v9 val_main_v8
  exact Cert.Tile.tile_1_32_32_1_unit_apply Bv _ _ _ h w

/-- The rectified weight at an index: the larger of the weight and the constant 0. -/
theorem rectified_weight_apply (W : (⟨S1x16x16x32, .f32⟩ : BufTy).Contents (Elt Ideal)) (i : S1x16x16x32.Idx) :
    val_main_v3 (F := Ideal) W i = max (W i) (Ideal.ofBits .f32 0x00000000#32) := rfl

/-- The scatter's start index is (0, 0). -/
theorem start_index_zero (k : S2.Idx) : val_main_v6 (F := Ideal) k = 0#32 := by
  unfold val_main_v6 val_main_v4 val_main_v5 val_main_c val_main_c_0
  exact Cert.PatchScatter.index_vector_zero _ _ k

/-- The filter image at pixel (h, w), channel c, is the specification's filter. -/
theorem filter_image_apply (W : (⟨S1x16x16x32, .f32⟩ : BufTy).Contents (Elt Ideal)) (h w : Fin 512) (c : Fin 32) :
    val_main_v7 (F := Ideal) W (ix4 (0 : Fin 1) h w c) = Cert.LinFilter.filt W h w c := by
  unfold val_main_v7
  refine (Cert.PatchScatter.scatter4_apply scatter_S1x512x512x32_S2_S1x16x16x32_0123_n_12_0_wf
    (val_main_v2 (F := Ideal) W) (val_main_v3 (F := Ideal) W) (val_main_v6 (F := Ideal)) start_index_zero h w c).trans ?_
  unfold Cert.LinFilter.filt
  by_cases hh : h.val < 16 ∧ w.val < 16
  · rw [dif_pos hh, dif_pos hh, rectified_weight_apply]
  · rw [dif_neg hh, dif_neg hh, tiled_weight_apply]

/-- The reference's product array is the specification's `weighted`. -/
theorem ref_weighted (X : (⟨S8x512x512x32, .f32⟩ : BufTy).Contents (Elt Ideal))
    (W : (⟨S1x16x16x32, .f32⟩ : BufTy).Contents (Elt Ideal)) :
    Cert.ReferenceIdeal.Read.val_main_v12 (F := Ideal) X W = Cert.LinFilter.weighted X W := by
  funext i
  obtain ⟨n, h, w, c, rfl⟩ : ∃ (n : Fin 8) (h w : Fin 512) (c : Fin 32), i = ix4 n h w c :=
    ⟨i 0, i 1, i 2, i 3, eq_ix4 i⟩
  rw [Cert.LinFilter.weighted_apply, val_main_v12_apply, val_main_v11_apply]
  have e11 : idx_main_v11 (ix4 n h w c) = ix4 (0 : Fin 1) h w c :=
    funext fun a => Fin.ext (by match a with | ⟨0, _⟩ => rfl | ⟨1, _⟩ => rfl | ⟨2, _⟩ => rfl | ⟨3, _⟩ => rfl)
  rw [e11, filter_image_apply]
  rfl

/-- The reference's result array is the specification's `filtered`. -/
theorem ref_filtered (X : (⟨S8x512x512x32, .f32⟩ : BufTy).Contents (Elt Ideal))
    (W : (⟨S1x16x16x32, .f32⟩ : BufTy).Contents (Elt Ideal)) (Bv : (⟨S1x16x16x1, .f32⟩ : BufTy).Contents (Elt Ideal)) :
    Cert.ReferenceIdeal.Read.val_main_v16 (F := Ideal) X W Bv = Cert.LinFilter.filtered X W Bv := by
  funext i
  obtain ⟨n, h, w, u, rfl⟩ : ∃ (n : Fin 8) (h w : Fin 512) (u : Fin 1), i = ix4 n h w u :=
    ⟨i 0, i 1, i 2, i 3, eq_ix4 i⟩
  rw [Cert.LinFilter.filtered_apply, val_main_v16_apply, val_main_v14_apply, val_main_v13_apply, val_main_v15_apply]
  have e15 : idx_main_v15 (ix4 n h w u) = ix4 (0 : Fin 1) h w (0 : Fin 1) :=
    funext fun a => Fin.ext (by match a with | ⟨0, _⟩ => rfl | ⟨1, _⟩ => rfl | ⟨2, _⟩ => rfl | ⟨3, _⟩ => rfl)
  have e13 : ∀ k : Fin 32, idx_main_v13 (idx_main_v14 (ix4 n h w u)) k = ix4 n h w k := fun k =>
    funext fun a => Fin.ext (by match a with | ⟨0, _⟩ => rfl | ⟨1, _⟩ => rfl | ⟨2, _⟩ => rfl | ⟨3, _⟩ => rfl)
  have e12 : ∀ k : Fin 32, val_main_v12 (F := Ideal) X W (idx_main_v13 (idx_main_v14 (ix4 n h w u)) k)
      = X (ix4 n h w k) * Cert.LinFilter.filt W h w k := fun k => by
    rw [e13 k, ref_weighted, Cert.LinFilter.weighted_apply]
    rfl
  rw [e15, tiled_bias_apply, Finset.sum_congr rfl fun k _ => e12 k, val_main_cst_apply]
  show Ideal.ofBits .f32 0x00000000#32 + _ + _ = _
  rw [Ideal.ofBits_zero_f32, zero_add]
  rfl

end Cert.ReferenceIdeal.RefValue

end
-- ==== Proof.lean ====
/-
  A periodic linear filter: the kernel against its reference, over the extended reals.

  Both programs build the same filter image — the 16 × 16 × 32 weight repeated with period 16 over the 512 × 512 pixels,
  the top-left 16 × 16 patch replaced by the rectified weight max(w, 0) — multiply the input by it (`weighted`) and
  add to each pixel's sum over the 32 channels the bias, repeated with the same period (`filtered`). The reference does
  this on whole arrays. The kernel's host part builds only two 64-row slabs of the filter (the first slab of rows, which
  holds the patch, and the slab every other block of rows sees) and one 64-row slab of the bias; its grid of 8 × 8 points
  then takes, for rows 64·s … 64·s + 63 of image n, the slab min(s, 1) of the filter. The two agree because 16 divides 64:
  a row's position in its slab and in the image are the same modulo 16, and the patch lies in the first slab.
  No finiteness is used: the two sides are the same products, and the same finite sums of them, element by element.
-/
import proofs.«159069_j8443905704514_2_alg».proof.Defs
import proofs.«159069_j8443905704514_2_alg».proof.Proof.Gen.Kernel
import proofs.«159069_j8443905704514_2_alg».proof.Proof.Gen.Kernel.Skeleton
import proofs.«159069_j8443905704514_2_alg».proof.Proof.Gen.Kernel.Launch
import proofs.«159069_j8443905704514_2_alg».proof.Proof.Gen.Kernel.Points
import proofs.«159069_j8443905704514_2_alg».proof.Proof.Gen.Kernel.Frame
import proofs.«159069_j8443905704514_2_alg».proof.Proof.Gen.KernelIdeal
import proofs.«159069_j8443905704514_2_alg».proof.Proof.Gen.KernelIdeal.Skeleton
import proofs.«159069_j8443905704514_2_alg».proof.Proof.Gen.KernelIdeal.Launch
import proofs.«159069_j8443905704514_2_alg».proof.Proof.Gen.KernelIdeal.Points
import proofs.«159069_j8443905704514_2_alg».proof.Proof.Gen.KernelIdeal.Frame
import proofs.«159069_j8443905704514_2_alg».proof.Proof.Gen.ReferenceIdeal
import proofs.«159069_j8443905704514_2_alg».proof.Proof.Gen.Pre_finite_inputs
import proofs.«159069_j8443905704514_2_alg».proof.Proof.Gen.ReferenceIdeal.Run
import proofs.«159069_j8443905704514_2_alg».proof.Proof.Gen.ReferenceIdeal.Read
import proofs.«159069_j8443905704514_2_alg».proof.Proof.KernelArrays
import proofs.«159069_j8443905704514_2_alg».proof.Proof.KernelHost
import proofs.«159069_j8443905704514_2_alg».proof.Proof.KernelTail
import proofs.«159069_j8443905704514_2_alg».proof.Proof.KernelIsSpec
import proofs.«159069_j8443905704514_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: it runs, and its arguments are never written. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with `filtered` and `weighted` of the linear filter's specification at the arguments. -/
theorem algebraic : Cert.algebraic_KernelIdeal_ReferenceIdeal := by
  intro m ρ m' ρ' _ hagree
  refine ⟨fun c => Cert.LinFilter.filtered (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => Cert.LinFilter.weighted (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · -- the kernel: the region's two arrays are functions of what it finds, which the host built from the arguments
    refine (θ_run Cert.KernelIdeal.defs _ _).mono (fun r h c => ?_) (Cert.KernelIdeal.Tail.run_arrays (F := Ideal) m ρ)
    obtain ⟨h19, h20, h0, h1, h2⟩ := h c
    refine ⟨h19.trans ?_, h20.trans ?_, h0, h1, h2⟩
    · rw [Cert.KernelIdeal.Arrays.final3 m c, Cert.KernelIdeal.Host.V_stack m c, Cert.KernelIdeal.Host.V_bias m c,
        Cert.KernelIdeal.Host.V_flat m c]
      exact Cert.KernelIdeal.Algebra.filtered_eq _ _ _ _
    · rw [Cert.KernelIdeal.Arrays.final4 m c, Cert.KernelIdeal.Host.V_stack m c, Cert.KernelIdeal.Host.V_flat m c]
      exact Cert.KernelIdeal.Algebra.weighted_eq _ _ _
  · -- the reference: its composed terms are the specification, at arguments that agree with the kernel's
    refine (θ_run Cert.ReferenceIdeal.defs _ _).mono (fun r h c => ?_) (Cert.ReferenceIdeal.Value.run (F := Ideal) m' ρ')
    obtain ⟨h16, h12, h0, h1, h2⟩ := h c
    refine ⟨h16.trans ?_, h12.trans ?_, h0, h1, h2⟩
    · rw [Cert.ReferenceIdeal.Read.val_main_v16_eq, Cert.ReferenceIdeal.RefValue.ref_filtered, (hagree c).1, (hagree c).2.1,
        (hagree c).2.2]
    · rw [Cert.ReferenceIdeal.Read.val_main_v12_eq, Cert.ReferenceIdeal.RefValue.ref_weighted, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
